-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x256 .f32) (main_arg13 : FVec F S256 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x256 .f32 := Host.absf main_arg12
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x512 .f32) (main_arg9 : FVec F S512 .f32) (main_arg10 : FVec F S512x512 .f32) (main_arg11 : FVec F S512 .f32) (main_arg12 : FVec F S512x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x256 .f32) (main_arg7 : FVec F S256 .f32) (main_arg8 : FVec F S256x512 .f32) (main_arg9 : FVec F S512 .f32) (main_arg10 : FVec F S512x512 .f32) (main_arg11 : FVec F S512 .f32) (main_arg12 : FVec F S512x256 .f32) (main_arg13 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x256 .f32) (main_arg1 : FVec F S1024x256 .f32) (main_arg2 : FVec F S256x512 .f32) (main_arg3 : FVec F S512 .f32) (main_arg4 : FVec F S512x512 .f32) (main_arg5 : FVec F S512 .f32) (main_arg6 : FVec F S512x256 .f32) (main_arg7 : FVec F S256 .f32) (main_arg8 : FVec F S256x512 .f32) (main_arg9 : FVec F S512 .f32) (main_arg10 : FVec F S512x512 .f32) (main_arg11 : FVec F S512 .f32) (main_arg12 : FVec F S512x256 .f32) (main_arg13 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x256 : Shape := ⟨2, ![1024, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S1x1 : Shape := ⟨2, ![1, 1]⟩
abbrev S256x256 : Shape := ⟨2, ![256, 256]⟩
abbrev S256x1 : Shape := ⟨2, ![256, 1]⟩
abbrev S1 : Shape := ⟨1, ![1]⟩
abbrev S_ : Shape := ⟨0, ![]⟩

abbrev nBuf : Space → Nat
  | .hbm => 29
  | .vmem => 17
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S1024x256, .bf16⟩
  | .hbm, ⟨15, _⟩ => ⟨S256x512, .bf16⟩
  | .hbm, ⟨16, _⟩ => ⟨S512x512, .bf16⟩
  | .hbm, ⟨17, _⟩ => ⟨S512x256, .bf16⟩
  | .hbm, ⟨18, _⟩ => ⟨S256x512, .bf16⟩
  | .hbm, ⟨19, _⟩ => ⟨S512x512, .bf16⟩
  | .hbm, ⟨20, _⟩ => ⟨S512x256, .bf16⟩
  | .hbm, ⟨21, _⟩ => ⟨S1x512, .f32⟩
  | .hbm, ⟨22, _⟩ => ⟨S1x512, .f32⟩
  | .hbm, ⟨23, _⟩ => ⟨S1x256, .f32⟩
  | .hbm, ⟨24, _⟩ => ⟨S1x512, .f32⟩
  | .hbm, ⟨25, _⟩ => ⟨S1x512, .f32⟩
  | .hbm, ⟨26, _⟩ => ⟨S1x256, .f32⟩
  | .hbm, ⟨27, _⟩ => ⟨S1x1, .f32⟩
  | .hbm, ⟨28, _⟩ => ⟨S_, .f32⟩
  | .local _ .vmem, ⟨0, _⟩ => ⟨S256x256, .bf16⟩
  | .local _ .vmem, ⟨1, _⟩ => ⟨S256x256, .bf16⟩
  | .local _ .vmem, ⟨2, _⟩ => ⟨S1024x256, .f32⟩
  | .local _ .vmem, ⟨3, _⟩ => ⟨S256x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x256, .bf16⟩
  | .local _ .vmem, ⟨8, _⟩ => ⟨S1x256, .f32⟩
  | .local _ .vmem, ⟨9, _⟩ => ⟨S256x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S512x256, .bf16⟩
  | .local _ .vmem, ⟨14, _⟩ => ⟨S1x256, .f32⟩
  | .local _ .vmem, ⟨15, _⟩ => ⟨S1x1, .f32⟩
  | .local _ .vmem, ⟨16, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v102 : BitVec 1 := Scalar.cmpi .eq arg0 c3_i32
  let v103 : BitVec 32 := Scalar.extui v102
  let c0_i32_52 : BitVec 32 := 0#32
  let v104 : BitVec 1 := Scalar.cmpi .ne v103 c0_i32_52
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  bitsLt_bf16_f32 : FTy.bits .bf16 < FTy.bits .f32
  shapeCasts_S512_S1x512 : S512.ShapeCasts S1x512
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x512_S256x512 : S1x512.Broadcasts S256x512
  broadcasts_S1x256_S256x256 : S1x256.Broadcasts S256x256
  reduces_S256x256_S256 : S256x256.Reduces [1] S256
  shapeCasts_S256_S256x1 : S256.ShapeCasts S256x1
  broadcasts_S256x1_S256x256 : S256x1.Broadcasts S256x256
  reduces_S1024x256_S256 : S1024x256.Reduces [0] S256
  reduces_S256x1_S1 : S256x1.Reduces [0] S1
  shapeCasts_S1_S1x1 : S1.ShapeCasts S1x1
  shapeCasts_S1x1_S_ : S1x1.ShapeCasts S_
  dot_S256x256_S256x512_S256x512_1_0_0_1_n_n_wf : DotDims.WF S256x256 S256x512 S256x512 [1] [0] [0] [1] [] []
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .bf16 = 32 ∨ (Rect.block (s := S1024x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .bf16 = 32 ∨ (Rect.block (s := S256x512) S256x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .bf16 = 32 ∨ (Rect.block (s := S512x256) S512x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x1.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S1024x256 : Shape := ⟨2, ![1024, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1024x512 : Shape := ⟨2, ![1024, 512]⟩
abbrev S1x512 : Shape := ⟨2, ![1, 512]⟩
abbrev S_ : Shape := ⟨0, ![]⟩
abbrev S1x256 : Shape := ⟨2, ![1, 256]⟩
abbrev S1024 : Shape := ⟨1, ![1024]⟩
abbrev S1024x1 : Shape := ⟨2, ![1024, 1]⟩
abbrev S1x1024x256 : Shape := ⟨3, ![1, 1024, 256]⟩
abbrev S1024x1x256 : Shape := ⟨3, ![1024, 1, 256]⟩
abbrev S1024x1024x256 : Shape := ⟨3, ![1024, 1024, 256]⟩

abbrev nBuf : Space → Nat
  | .hbm => 155
  | .vmem => 0
  | .smem => 0
  | _ => 0

abbrev hbmTy0_0 (i : Nat) : BufTy := match i % 128 with
  | 0 => ⟨S1024x256, .f32⟩
  | 1 => ⟨S1024x256, .f32⟩
  | 2 => ⟨S256x512, .f32⟩
  | 3 => ⟨S512, .f32⟩
  | 4 => ⟨S512x512, .f32⟩
  | 5 => ⟨S512, .f32⟩
  | 6 => ⟨S512x256, .f32⟩
  | 7 => ⟨S256, .f32⟩
  | 8 => ⟨S256x512, .f32⟩
  | 9 => ⟨S512, .f32⟩
  | 10 => ⟨S512x512, .f32⟩
  | 11 => ⟨S512, .f32⟩
  | 12 => ⟨S512x256, .f32⟩
  | 13 => ⟨S256, .f32⟩
  | 14 => ⟨S1024x512, .f32⟩
  | 15 => ⟨S1x512, .f32⟩
  | 16 => ⟨S1024x512, .f32⟩
  | 17 => ⟨S1024x512, .f32⟩
  | 18 => ⟨S_, .f32⟩
  | 19 => ⟨S1024x512, .f32⟩
  | 20 => ⟨S1024x512, .f32⟩
  | 21 => ⟨S1024x512, .f32⟩
  | 22 => ⟨S1x512, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S1024x256, .f32⟩
  | 29 => ⟨S1x256, .f32⟩
  | 30 => ⟨S1024x256, .f32⟩
  | 31 => ⟨S1024x256, .f32⟩
  | 32 => ⟨S1024x256, .f32⟩
  | 33 => ⟨S_, .f32⟩
  | 34 => ⟨S1024, .f32⟩
  | 35 => ⟨S1024x1, .f32⟩
  | 36 => ⟨S1024x1, .f32⟩
  | 37 => ⟨S_, .f32⟩
  | 38 => ⟨S1024x1, .f32⟩
  | 39 => ⟨S1024x1, .f32⟩
  | 40 => ⟨S1024x256, .f32⟩
  | 41 => ⟨S1024x256, .f32⟩
  | 42 => ⟨S1024x512, .f32⟩
  | 43 => ⟨S1x512, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S1x512, .f32⟩
  | 51 => ⟨S1024x512, .f32⟩
  | 52 => ⟨S1024x512, .f32⟩
  | 53 => ⟨S_, .f32⟩
  | 54 => ⟨S1024x512, .f32⟩
  | 55 => ⟨S1024x512, .f32⟩
  | 56 => ⟨S1024x256, .f32⟩
  | 57 => ⟨S1x256, .f32⟩
  | 58 => ⟨S1024x256, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S1024x256, .f32⟩
  | 66 => ⟨S1024x256, .f32⟩
  | 67 => ⟨S1024x256, .f32⟩
  | 68 => ⟨S_, .f32⟩
  | 69 => ⟨S1024, .f32⟩
  | 70 => ⟨S1x1024x256, .f32⟩
  | 71 => ⟨S1024x1x256, .f32⟩
  | 72 => ⟨S1024x1024x256, .f32⟩
  | 73 => ⟨S1024x1024x256, .f32⟩
  | 74 => ⟨S1024x1024x256, .f32⟩
  | 75 => ⟨S1024x1024x256, .f32⟩
  | 76 => ⟨S_, .f32⟩
  | 77 => ⟨S1024x256, .f32⟩
  | 78 => ⟨S_, .f32⟩
  | 79 => ⟨S1024x256, .f32⟩
  | 80 => ⟨S1024x256, .f32⟩
  | 81 => ⟨S1024x256, .f32⟩
  | 82 => ⟨S1024x256, .f32⟩
  | 83 => ⟨S1024x256, .f32⟩
  | 84 => ⟨S_, .f32⟩
  | 85 => ⟨S1024, .f32⟩
  | 86 => ⟨S1024, .f32⟩
  | 87 => ⟨S_, .f32⟩
  | 88 => ⟨S_, .f32⟩
  | 89 => ⟨S_, .f32⟩
  | 90 => ⟨S_, .f32⟩
  | 91 => ⟨S1024x512, .f32⟩
  | 92 => ⟨S1x512, .f32⟩
  | 93 => ⟨S1024x512, .f32⟩
  | 94 => ⟨S1024x512, .f32⟩
  | 95 => ⟨S_, .f32⟩
  | 96 => ⟨S1024x512, .f32⟩
  | 97 => ⟨S1024x512, .f32⟩
  | 98 => ⟨S1024x512, .f32⟩
  | 99 => ⟨S1x512, .f32⟩
  | 100 => ⟨S1024x512, .f32⟩
  | 101 => ⟨S1024x512, .f32⟩
  | 102 => ⟨S_, .f32⟩
  | 103 => ⟨S1024x512, .f32⟩
  | 104 => ⟨S1024x512, .f32⟩
  | 105 => ⟨S1024x256, .f32⟩
  | 106 => ⟨S1x256, .f32⟩
  | 107 => ⟨S1024x256, .f32⟩
  | 108 => ⟨S1024x256, .f32⟩
  | 109 => ⟨S1024x256, .f32⟩
  | 110 => ⟨S_, .f32⟩
  | 111 => ⟨S1024, .f32⟩
  | 112 => ⟨S1024x1, .f32⟩
  | 113 => ⟨S1024x1, .f32⟩
  | 114 => ⟨S_, .f32⟩
  | 115 => ⟨S1024x1, .f32⟩
  | 116 => ⟨S1024x1, .f32⟩
  | 117 => ⟨S1024x256, .f32⟩
  | 118 => ⟨S1024x256, .f32⟩
  | 119 => ⟨S1024x512, .f32⟩
  | 120 => ⟨S1x512, .f32⟩
  | 121 => ⟨S1024x512, .f32⟩
  | 122 => ⟨S1024x512, .f32⟩
  | 123 => ⟨S_, .f32⟩
  | 124 => ⟨S1024x512, .f32⟩
  | 125 => ⟨S1024x512, .f32⟩
  | 126 => ⟨S1024x512, .f32⟩
  | 127 => ⟨S1x512, .f32⟩
  | _ => ⟨S1024x256, .f32⟩

abbrev hbmTy0_1 (i : Nat) : BufTy := match i % 128 with
  | 0 => ⟨S1024x512, .f32⟩
  | 1 => ⟨S1024x512, .f32⟩
  | 2 => ⟨S_, .f32⟩
  | 3 => ⟨S1024x512, .f32⟩
  | 4 => ⟨S1024x512, .f32⟩
  | 5 => ⟨S1024x256, .f32⟩
  | 6 => ⟨S1x256, .f32⟩
  | 7 => ⟨S1024x256, .f32⟩
  | 8 => ⟨S1024x256, .f32⟩
  | 9 => ⟨S1024x256, .f32⟩
  | 10 => ⟨S1024x256, .f32⟩
  | 11 => ⟨S1024x256, .f32⟩
  | 12 => ⟨S1024x256, .f32⟩
  | 13 => ⟨S1024x256, .f32⟩
  | 14 => ⟨S1024x256, .f32⟩
  | 15 => ⟨S1024x256, .f32⟩
  | 16 => ⟨S_, .f32⟩
  | 17 => ⟨S1024, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_call2_v2 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call3_cst : Ref sig .tc := ⟨.hbm, 46, rfl⟩
abbrev main_call3_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call4_cst : Ref sig .tc := ⟨.hbm, 53, rfl⟩
abbrev main_call4_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_1 : Ref sig .tc := ⟨.hbm, 76, rfl⟩
abbrev main_v48 : Ref sig .tc := ⟨.hbm, 77, rfl⟩
abbrev main_cst_2 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_3 : Ref sig .tc := ⟨.hbm, 84, rfl⟩
abbrev main_v54 : Ref sig .tc := ⟨.hbm, 85, rfl⟩
abbrev main_v55 : Ref sig .tc := ⟨.hbm, 86, rfl⟩
abbrev main_cst_4 : Ref sig .tc := ⟨.hbm, 87, rfl⟩
abbrev main_v56 : Ref sig .tc := ⟨.hbm, 88, rfl⟩
abbrev main_cst_5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call5_cst : Ref sig .tc := ⟨.hbm, 95, rfl⟩
abbrev main_call5_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call6_cst : Ref sig .tc := ⟨.hbm, 102, rfl⟩
abbrev main_call6_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call7_v0 : Ref sig .tc := ⟨.hbm, 109, rfl⟩
abbrev main_call7_cst : Ref sig .tc := ⟨.hbm, 110, rfl⟩
abbrev main_call7_v1 : Ref sig .tc := ⟨.hbm, 111, rfl⟩
abbrev main_call7_v2 : Ref sig .tc := ⟨.hbm, 112, rfl⟩
abbrev main_v72 : Ref sig .tc := ⟨.hbm, 113, rfl⟩
abbrev main_cst_6 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call8_cst : Ref sig .tc := ⟨.hbm, 123, rfl⟩
abbrev main_call8_v0 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call9_cst : Ref sig .tc := ⟨.hbm, 130, rfl⟩
abbrev main_call9_v0 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_7 : Ref sig .tc := ⟨.hbm, 144, rfl⟩
abbrev main_v98 : Ref sig .tc := ⟨.hbm, 145, rfl⟩
abbrev main_cst_8 : Ref sig .tc := ⟨.hbm, 146, rfl⟩
abbrev main_v99 : Ref sig .tc := ⟨.hbm, 147, rfl⟩
abbrev main_cst_9 : Ref sig .tc := ⟨.hbm, 148, rfl⟩
abbrev main_v100 : Ref sig .tc := ⟨.hbm, 149, rfl⟩
abbrev main_cst_10 : Ref sig .tc := ⟨.hbm, 150, rfl⟩
abbrev main_v101 : Ref sig .tc := ⟨.hbm, 151, rfl⟩
abbrev main_cst_11 : Ref sig .tc := ⟨.hbm, 152, rfl⟩
abbrev main_v102 : Ref sig .tc := ⟨.hbm, 153, rfl⟩
abbrev main_v103 : Ref sig .tc := ⟨.hbm, 154, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S1024x256_S1x1024x256_1_2 : S1024x256.BroadcastsInDim S1x1024x256 (![1, 2] : Fin 2 → Fin S1x1024x256.rank)
  bcast_S1024x256_S1024x1x256_0_2 : S1024x256.BroadcastsInDim S1024x1x256 (![0, 2] : Fin 2 → Fin S1024x1x256.rank)
  bcast_S1x1024x256_S1024x1024x256_0_1_2 : S1x1024x256.BroadcastsInDim S1024x1024x256 (![0, 1, 2] : Fin 3 → Fin S1024x1024x256.rank)
  bcast_S1024x1x256_S1024x1024x256_0_1_2 : S1024x1x256.BroadcastsInDim S1024x1024x256 (![0, 1, 2] : Fin 3 → Fin S1024x1024x256.rank)
  reducesTo_S1024x1024x256_S1024x256_d1 : S1024x1024x256.ReducesTo [1] S1024x256
  bcast_S_S1024x256 : S_.BroadcastsInDim S1024x256 (![] : Fin 0 → Fin S1024x256.rank)
  reducesTo_S1024_S_d0 : S1024.ReducesTo [0] S_
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.KernPieces.lean ====
/-
  What one grid point leaves behind, as values.

  The kernel keeps a 1×1 accumulator in scratch memory.  At every grid point it loads its blocks, forms this tile's
  partial sum, and stores `accumulator + partial sum` back (`step`: the stored value as a function of the fourteen
  loaded blocks and of the accumulator's contents before the point).  At the first point the accumulator is first
  overwritten with zero, so what that point leaves is `step` of the zero block; at the last point the 1×1 output
  block is additionally set to the freshly stored accumulator divided by 1024.  These are statements about stores
  and loads of whole buffers only; they hold for any float instance.
-/
import proofs.«119348_j27986006901387_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Club.Kern

open Cert.KernelIdeal Cert.KernelIdeal.Gen

variable {F : FTy → Type} [FloatOps F]

theorem hz : (![0, 0] : Fin 2 → Nat) = fun _ => 0 := funext fun a => by fin_cases a <;> rfl

/-- The accumulator after a point: its contents `acc` before the point plus the tile's partial sum, from the point's
    fourteen input blocks. -/
def step (x0 : Vec F S256x256 .bf16) (x1 : Vec F S1024x256 .f32) (x2 : Vec F S256x512 .bf16) (x3 : Vec F S1x512 .f32) (x4 : Vec F S512x512 .bf16) (x5 : Vec F S1x512 .f32) (x6 : Vec F S512x256 .bf16) (x7 : Vec F S1x256 .f32) (x8 : Vec F S256x512 .bf16) (x9 : Vec F S1x512 .f32) (x10 : Vec F S512x512 .bf16) (x11 : Vec F S1x512 .f32) (x12 : Vec F S512x256 .bf16) (x13 : Vec F S1x256 .f32) (acc : Vec F S1x1 .f32) : Vec F S1x1 .f32 :=
  k0_pay1 x1 (k0_pay7 (k0_pay5 x0 x2 x3 x4 x5 x6 x7) (k0_pay6 x0 x2 x3 x4 x5 x6 x7)) (k0_pay8 (k0_pay4 x0) x8 x9 x10 x11 x12 x13) (k0_pay9 (k0_pay4 x0) x8 x9 x10 x11 x12 x13) (k0_pay10 x1) acc

/-- A middle point leaves the accumulator at `step` of what it held. -/
theorem sout_B (c : Dev nD) (i : grid0.Coords) (arg1 : Memref sig .tc .vmem S256x256 .bf16) (harg1 : arg1.IsWhole) (arg2 : Memref sig .tc .vmem S1024x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : ¬cond0_1 i)
    (x0 : Vec F S256x256 .bf16) (x1 : Vec F S1024x256 .f32) (x2 : Vec F S256x512 .bf16) (x3 : Vec F S1x512 .f32) (x4 : Vec F S512x512 .bf16) (x5 : Vec F S1x512 .f32) (x6 : Vec F S512x256 .bf16) (x7 : Vec F S1x256 .f32) (x8 : Vec F S256x512 .bf16) (x9 : Vec F S1x512 .f32) (x10 : Vec F S512x512 .bf16) (x11 : Vec F S1x512 .f32) (x12 : Vec F S512x256 .bf16) (x13 : Vec F S1x256 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = step x0 x1 x2 x3 x4 x5 x6 x7 x8 x9 x10 x11 x12 x13 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x256) hz, View.ld_unit_zero (S := S1024x256) hz, View.ld_unit_zero (S := S256x512) hz, View.ld_unit_zero (S := S1x512) hz, View.ld_unit_zero (S := S512x512) hz, View.ld_unit_zero (S := S512x256) hz, View.ld_unit_zero (S := S1x256) hz, View.ld_unit_zero (S := S1x1) hz]
  rfl

/-- The last point leaves the accumulator at `step` of what it held. -/
theorem sout_C (c : Dev nD) (i : grid0.Coords) (arg1 : Memref sig .tc .vmem S256x256 .bf16) (harg1 : arg1.IsWhole) (arg2 : Memref sig .tc .vmem S1024x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S256x256 .bf16) (x1 : Vec F S1024x256 .f32) (x2 : Vec F S256x512 .bf16) (x3 : Vec F S1x512 .f32) (x4 : Vec F S512x512 .bf16) (x5 : Vec F S1x512 .f32) (x6 : Vec F S512x256 .bf16) (x7 : Vec F S1x256 .f32) (x8 : Vec F S256x512 .bf16) (x9 : Vec F S1x512 .f32) (x10 : Vec F S512x512 .bf16) (x11 : Vec F S1x512 .f32) (x12 : Vec F S512x256 .bf16) (x13 : Vec F S1x256 .f32) (xs0 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = step x0 x1 x2 x3 x4 x5 x6 x7 x8 x9 x10 x11 x12 x13 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x256) hz, View.ld_unit_zero (S := S1024x256) hz, View.ld_unit_zero (S := S256x512) hz, View.ld_unit_zero (S := S1x512) hz, View.ld_unit_zero (S := S512x512) hz, View.ld_unit_zero (S := S512x256) hz, View.ld_unit_zero (S := S1x256) hz, View.ld_unit_zero (S := S1x1) hz]
  rfl

/-- The first point overwrites the accumulator with the zero block and then leaves `step` of that. -/
theorem sout_A (c : Dev nD) (i : grid0.Coords) (arg1 : Memref sig .tc .vmem S256x256 .bf16) (harg1 : arg1.IsWhole) (arg2 : Memref sig .tc .vmem S1024x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x1 .f32) (harg15 : arg15.IsWhole) (arg16 : Memref sig .tc .vmem S1x1 .f32) (harg16 : arg16.IsWhole) (hc0 : cond0_0 i) (hc1 : ¬cond0_1 i)
    (x0 : Vec F S256x256 .bf16) (x1 : Vec F S1024x256 .f32) (x2 : Vec F S256x512 .bf16) (x3 : Vec F S1x512 .f32) (x4 : Vec F S512x512 .bf16) (x5 : Vec F S1x512 .f32) (x6 : Vec F S512x256 .bf16) (x7 : Vec F S1x256 .f32) (x8 : Vec F S256x512 .bf16) (x9 : Vec F S1x512 .f32) (x10 : Vec F S512x512 .bf16) (x11 : Vec F S1x512 .f32) (x12 : Vec F S512x256 .bf16) (x13 : Vec F S1x256 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 = step x0 x1 x2 x3 x4 x5 x6 x7 x8 x9 x10 x11 x12 x13 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x256) hz, View.ld_unit_zero (S := S1024x256) hz, View.ld_unit_zero (S := S256x512) hz, View.ld_unit_zero (S := S1x512) hz, View.ld_unit_zero (S := S512x512) hz, View.ld_unit_zero (S := S512x256) hz, View.ld_unit_zero (S := S1x256) hz, View.ld_unit_zero (S := S1x1) hz]
  rfl

/-- The last point sets the output block to the accumulator it has just stored, divided by 1024. -/
theorem out_C (c : Dev nD) (i : grid0.Coords) (arg1 : Memref sig .tc .vmem S256x256 .bf16) (harg1 : arg1.IsWhole) (arg2 : Memref sig .tc .vmem S1024x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S256x512 .bf16) (harg9 : arg9.IsWhole) (arg10 : Memref sig .tc .vmem S1x512 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x1 .f32) (harg15 : arg15.IsWhole) (arg16 : Memref sig .tc .vmem S1x1 .f32) (harg16 : arg16.IsWhole) (hc0 : ¬cond0_0 i) (hc1 : cond0_1 i)
    (x0 : Vec F S256x256 .bf16) (x1 : Vec F S1024x256 .f32) (x2 : Vec F S256x512 .bf16) (x3 : Vec F S1x512 .f32) (x4 : Vec F S512x512 .bf16) (x5 : Vec F S1x512 .f32) (x6 : Vec F S512x256 .bf16) (x7 : Vec F S1x256 .f32) (x8 : Vec F S256x512 .bf16) (x9 : Vec F S1x512 .f32) (x10 : Vec F S512x512 .bf16) (x11 : Vec F S1x512 .f32) (x12 : Vec F S512x256 .bf16) (x13 : Vec F S1x256 .f32) (xs0 : Vec F S1x1 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = k0_pay2 (step x0 x1 x2 x3 x4 x5 x6 x7 x8 x9 x10 x11 x12 x13 xs0) := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x256) hz, View.ld_unit_zero (S := S1024x256) hz, View.ld_unit_zero (S := S256x512) hz, View.ld_unit_zero (S := S1x512) hz, View.ld_unit_zero (S := S512x512) hz, View.ld_unit_zero (S := S512x256) hz, View.ld_unit_zero (S := S1x256) hz, View.ld_unit_zero (S := S1x1) hz]
  rfl

end Cert.Club.Kern

end
-- ==== Proof.ClubSpec.lean ====
/-
  The loss both programs compute, written once as a function of the fourteen argument arrays.

  A row x of domain_a (256 entries) goes through two three-layer perceptrons (256 → 512 → 512 → 256, a
  maximum with zero after the first two layers).  The first one's output h is divided by its Euclidean norm, clamped
  below by a small positive constant: this is the row of means mu.  The second one's output goes through tanh: the row
  of log-variances lv; iv = exp (-lv) is the inverse variance.

  The kernel visits the 1024 rows in four tiles of 256, and for each entry (i, d) adds
      max (Eb2 d - 2 · mu i d · Eb d + mu i d ², 0) · iv i d + lv i d,
  where Eb d and Eb2 d are the means over the 1024 rows j of domain_b of b j d and of b j d ²; the total is divided
  by 1024 (`kernelVal`).  The reference adds the mean over i of pos i - neg i and the mean over i of prob i, where
      pos i  = Σ_d  -(b i d - mu i d)² · iv i d - lv i d,
      neg i  = Σ_d  -(mean_j (b j d - mu i d)²) · iv i d - lv i d,
      prob i = Σ_d   (b i d - mu i d)² · iv i d + lv i d          (`refVal`).
  Every sum is a finite sum over `Fin n`; the arrays are read at indices written by coordinates.
-/
import Idealize.ShloMosaic.PureOps.Ideal
import Idealize.ShloMosaic.Lib.ValueIdx

noncomputable section

namespace Cert.Club

open Idealize.ShloMosaic Idealize.ShloMosaic.ValueIdx

/-- An `[m, n]` array of extended reals. -/
abbrev Mat (m n : ℕ) : Type := (⟨2, ![m, n]⟩ : Shape).Idx → EReal
/-- An `[n]` array of extended reals. -/
abbrev Vc (n : ℕ) : Type := (⟨1, ![n]⟩ : Shape).Idx → EReal

/-- The float words the two programs spell besides zero: the norm's lower clamp 1e-12 (rounded to f32), 1024, 2, 1. -/
abbrev epsW : EReal := Ideal.ofBits .f32 0x2B8CBCCC#32
abbrev nW : EReal := Ideal.ofBits .f32 0x44800000#32
abbrev twoW : EReal := Ideal.ofBits .f32 0x40000000#32
abbrev oneW : EReal := Ideal.ofBits .f32 0x3F800000#32

/-- One affine layer applied to a row: entry `n` of `x · w + c`. -/
def lay {K N : ℕ} (x : Fin K → EReal) (w : Mat K N) (c : Vc N) (n : Fin N) : EReal :=
  (∑ k : Fin K, x k * w (ix2 k n)) + c (ix1 n)

/-- The three-layer perceptron applied to a row `x`: entry `d` of its output. -/
def mlp (x : Fin 256 → EReal) (w0 : Mat 256 512) (c0 : Vc 512) (w1 : Mat 512 512) (c1 : Vc 512) (w2 : Mat 512 256)
    (c2 : Vc 256) (d : Fin 256) : EReal :=
  lay (fun k => max (lay (fun k => max (lay x w0 c0 k) 0) w1 c1 k) 0) w2 c2 d

/-- The Euclidean norm of a row, clamped below by the small constant. -/
def nrm (h : Fin 256 → EReal) : EReal := max (Ideal.sqrt (∑ d : Fin 256, h d * h d)) epsW

/-- Row `i` of domain_a. -/
abbrev rowA (a : Mat 1024 256) (i : Fin 1024) : Fin 256 → EReal := fun k => a (ix2 i k)

/-- The mean `mu i d`: the first perceptron's output row divided by its clamped norm. -/
def mu (a : Mat 1024 256) (w0 : Mat 256 512) (c0 : Vc 512) (w1 : Mat 512 512) (c1 : Vc 512) (w2 : Mat 512 256)
    (c2 : Vc 256) (i : Fin 1024) (d : Fin 256) : EReal :=
  Ideal.div (mlp (rowA a i) w0 c0 w1 c1 w2 c2 d) (nrm (mlp (rowA a i) w0 c0 w1 c1 w2 c2))

/-- The log-variance `lv i d`: tanh of the second perceptron's output. -/
def lv (a : Mat 1024 256) (w0 : Mat 256 512) (c0 : Vc 512) (w1 : Mat 512 512) (c1 : Vc 512) (w2 : Mat 512 256)
    (c2 : Vc 256) (i : Fin 1024) (d : Fin 256) : EReal :=
  Ideal.tanh (mlp (rowA a i) w0 c0 w1 c1 w2 c2 d)

/-- The inverse variance `iv i d = exp (-lv i d)`. -/
def iv (a : Mat 1024 256) (w0 : Mat 256 512) (c0 : Vc 512) (w1 : Mat 512 512) (c1 : Vc 512) (w2 : Mat 512 256)
    (c2 : Vc 256) (i : Fin 1024) (d : Fin 256) : EReal :=
  Ideal.exp (-(lv a w0 c0 w1 c1 w2 c2 i d))

section Totals

variable (b : Mat 1024 256) (M L V : Fin 1024 → Fin 256 → EReal)

/-- The mean over the rows of domain_b of column `d`. -/
def colMean (d : Fin 256) : EReal := Ideal.div (∑ j : Fin 1024, b (ix2 j d)) nW
/-- The mean over the rows of domain_b of the squares of column `d`. -/
def colMeanSq (d : Fin 256) : EReal := Ideal.div (∑ j : Fin 1024, b (ix2 j d) * b (ix2 j d)) nW

/-- The kernel's summand at `(i, d)`. -/
def kterm (i : Fin 1024) (d : Fin 256) : EReal :=
  max ((colMeanSq b d - (twoW * M i d) * colMean b d) + M i d * M i d) 0 * V i d + L i d

/-- Row `p` of tile `t`. -/
def tileRow (t : Fin 4) (p : Fin 256) : Fin 1024 := ⟨256 * t.val + p.val, by omega⟩

/-- What tile `t` adds to the accumulator. -/
def tileSum (t : Fin 4) : EReal := ∑ p : Fin 256, ∑ q : Fin 256, kterm b M L V (tileRow t p) q

/-- The kernel's result: the four tiles' sums added from zero in grid order, divided by 1024. -/
def kernelVal : EReal :=
  Ideal.div ((((0 + tileSum b M L V 0) + tileSum b M L V 1) + tileSum b M L V 2) + tileSum b M L V 3) nW

/-- The reference's three row sums. -/
def posRow (i : Fin 1024) : EReal :=
  ∑ d : Fin 256, ((-((b (ix2 i d) - M i d) * (b (ix2 i d) - M i d))) * V i d - L i d)
def negRow (i : Fin 1024) : EReal :=
  ∑ d : Fin 256, ((-(Ideal.div (∑ j : Fin 1024, (b (ix2 j d) - M i d) * (b (ix2 j d) - M i d)) nW)) * V i d - L i d)
def probRow (i : Fin 1024) : EReal :=
  ∑ d : Fin 256, (((b (ix2 i d) - M i d) * (b (ix2 i d) - M i d)) * V i d + L i d)

/-- The reference's result. -/
def refVal : EReal :=
  oneW * Ideal.div (∑ i : Fin 1024, (posRow b M L V i - negRow b M L V i)) nW
    + oneW * Ideal.div (∑ i : Fin 1024, probRow b M L V i) nW

end Totals

end Cert.Club

end
-- ==== Proof.LibPlainDot.lean ====
/-
  GENERAL LEMMAS: a plain matrix product and a column broadcast, read at an index.

  * A plain matrix product [M, K] · [K, N] read at (p, q) is Σₖ l(p, k) · r(k, q): the contraction index of the
    dimension numbers is its one coordinate. Stated for ANY dimension-number record between such shapes whose operand
    indices are the plain ones, given as four hypotheses about coordinates (each is two lines for a printed record:
    the two contracted coordinates by the single-contracting-axis lemmas, the two free ones by unfolding the index).
  * A column [a, 1] broadcast along the second axis reads, at (p, c), the column's entry of row p.
-/
import Idealize.ShloMosaic.Lib.ValueIdx
import Idealize.ShloMosaic.Lib.Pipeline.Value
import Idealize.ShloMosaic.PureOps.Ideal.Laws

noncomputable section

namespace Cert.Pooling

open Idealize.ShloMosaic Idealize.ShloMosaic.ValueIdx

/-- A plain product's contraction sum at (p, q), re-indexed by the contracted coordinate. -/
theorem sum_contr_plain {M K N : ℕ} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pooling

end
-- ==== Proof.LibColumnLayout.lean ====
/-
  Column (keepdims) layout operations read at an index given by coordinates: a vector `[a]` cast to the column
  `[a, 1]`, and a column `[a, 1]` broadcast along its unit axis to `[a, b]`. Companions of the leading-unit-axis casts
  and the row broadcast `[1, b] → [a, b]`: each is the general read-at-an-index lemma of the operation with both indices
  written by coordinates and the coordinates' arithmetic discharged.
-/
import Idealize.ShloMosaic.Lib.ValueIdx
import Idealize.ShloMosaic.Lib.ValueLayout
import Idealize.ShloMosaic.Lib.Pipeline.Value

namespace Cert.ColumnLayout

open Idealize.ShloMosaic Idealize.ShloMosaic.ValueIdx

variable {α : Type}

/-- An `[a]` array cast to the column `[a, 1]` reads, at `(i, u)`, the operand at `i`, whatever the unit coordinate
`u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's one entry of row `p`: the broadcast
keeps the coordinate of the non-unit axis and puts `0` on the unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.ColumnLayout
-- ==== Proof.KernPayload.lean ====
/-
  The kernel body's arithmetic read at an index, at the ideal instance.

  Each payload of the body is a composition of whole-vector operations; read at an entry it is the scalar formula of
  ClubSpec: a matrix product into a zero accumulator plus a broadcast bias row is one affine layer (`lay`), three of
  them with maxima against zero are the perceptron (`mlp`), a lane sum of squares under a square root clamped below is
  the norm (`nrm`), and the accumulator's step adds the double sum over the tile's 256 × 256 entries of the kernel's
  summand.  Changes of float format are the identity on the extended reals.
-/
import proofs.«119348_j27986006901387_2_alg».proof.Proof.KernPieces
import proofs.«119348_j27986006901387_2_alg».proof.Proof.ClubSpec
import proofs.«119348_j27986006901387_2_alg».proof.Proof.LibPlainDot
import proofs.«119348_j27986006901387_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx

namespace Cert.Club.Kern

open Cert.KernelIdeal Cert.KernelIdeal.Gen

/-! ## The three matrix products' operand indices -/

theorem d1_l0 (i : S256x512.Idx) (q : dot_S256x256_S256x512_S256x512_1_0_0_1_n_n.contr.Idx) : (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem d1_l1 (i : S256x512.Idx) (q : dot_S256x256_S256x512_S256x512_1_0_0_1_n_n.contr.Idx) : (dot_S256x256_S256x512_S256x512_1_0_0_1_n_n.lhsIdx i q 1).val = (q ⟨0, by decide⟩).val :=
  dot_S256x256_S256x512_S256x512_1_0_0_1_n_n.lhsIdx_val_of_single rfl i q
theorem d1_r0 (i : S256x512.Idx) (q : dot_S256x256_S256x512_S256x512_1_0_0_1_n_n.contr.Idx) : (dot_S256x256_S256x512_S256x512_1_0_0_1_n_n.rhsIdx i q 0).val = (q ⟨0, by decide⟩).val :=
  dot_S256x256_S256x512_S256x512_1_0_0_1_n_n.rhsIdx_val_of_single rfl i q
theorem d1_r1 (i : S256x512.Idx) (q : dot_S256x256_S256x512_S256x512_1_0_0_1_n_n.contr.Idx) : (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

theorem d2_l0 (i : S256x512.Idx) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem d2_l1 (i : S256x512.Idx) (q : dot_S256x512_S512x512_S256x512_1_0_0_1_n_n.contr.Idx) : (dot_S256x512_S512x512_S256x512_1_0_0_1_n_n.lhsIdx i q 1).val = (q ⟨0, by decide⟩).val :=
  dot_S256x512_S512x512_S256x512_1_0_0_1_n_n.lhsIdx_val_of_single rfl i q
theorem d2_r0 (i : S256x512.Idx) (q : dot_S256x512_S512x512_S256x512_1_0_0_1_n_n.contr.Idx) : (dot_S256x512_S512x512_S256x512_1_0_0_1_n_n.rhsIdx i q 0).val = (q ⟨0, by decide⟩).val :=
  dot_S256x512_S512x512_S256x512_1_0_0_1_n_n.rhsIdx_val_of_single rfl i q
theorem d2_r1 (i : S256x512.Idx) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem d3_l0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem d3_l1 (i : S256x256.Idx) (q : dot_S256x512_S512x256_S256x256_1_0_0_1_n_n.contr.Idx) : (dot_S256x512_S512x256_S256x256_1_0_0_1_n_n.lhsIdx i q 1).val = (q ⟨0, by decide⟩).val :=
  dot_S256x512_S512x256_S256x256_1_0_0_1_n_n.lhsIdx_val_of_single rfl i q
theorem d3_r0 (i : S256x256.Idx) (q : dot_S256x512_S512x256_S256x256_1_0_0_1_n_n.contr.Idx) : (dot_S256x512_S512x256_S256x256_1_0_0_1_n_n.rhsIdx i q 0).val = (q ⟨0, by decide⟩).val :=
  dot_S256x512_S512x256_S256x256_1_0_0_1_n_n.rhsIdx_val_of_single rfl i q
theorem d3_r1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-! ## One affine layer -/

/-- A product into the zero accumulator plus a broadcast bias row, at `(p, n)`: `Σₖ l p k · r k n + bias n`. -/
theorem layer_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![M, K]⟩ φ₁) (rhs : FVec Ideal ⟨2, ![K, N]⟩ φ₂) (bias : FVec Ideal ⟨2, ![1, N]⟩ .f32)
    (hb : (⟨2, ![1, N]⟩ : Shape).Broadcasts ⟨2, ![M, N]⟩) (p : Fin M) (n : Fin N) :
    addf (matmul d none lhs rhs (constant ⟨2, ![M, N]⟩ .f32 0x00000000#32)) (broadcastTo ⟨2, ![M, N]⟩ bias hb) (ix2 p n)
      = (∑ k : Fin K, lhs (ix2 p k) * rhs (ix2 k n)) + bias (ix2 (0 : Fin 1) n) := by
  show FloatOps.matmul d none lhs rhs (constant _ .f32 0x00000000#32) (ix2 p n) + broadcastTo _ bias hb (ix2 p n) = _
  rw [Ideal.matmul_constant_zero_apply, Cert.Pooling.sum_contr_plain d hr hs hl0 hl1 hr0 hr1, broadcastTo_1b_ab_apply]

/-- The same under a maximum with the zero word and a change of format. -/
theorem relu_layer_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![M, K]⟩ φ₁) (rhs : FVec Ideal ⟨2, ![K, N]⟩ φ₂) (bias : FVec Ideal ⟨2, ![1, N]⟩ .f32)
    (hb : (⟨2, ![1, N]⟩ : Shape).Broadcasts ⟨2, ![M, N]⟩) (hlt : FTy.bf16.bits < FTy.f32.bits) (p : Fin M) (n : Fin N) :
    (truncf .bf16 (maximumf (addf (matmul d none lhs rhs (constant ⟨2, ![M, N]⟩ .f32 0x00000000#32))
        (broadcastTo ⟨2, ![M, N]⟩ bias hb)) (broadcast ⟨2, ![M, N]⟩ (Scalar.ofBits .f32 0x00000000#32))) hlt
          : FVec Ideal ⟨2, ![M, N]⟩ .bf16) (ix2 p n)
      = max ((∑ k : Fin K, lhs (ix2 p k) * rhs (ix2 k n)) + bias (ix2 (0 : Fin 1) n)) 0 := by
  show max (addf (matmul d none lhs rhs (constant ⟨2, ![M, N]⟩ .f32 0x00000000#32)) (broadcastTo ⟨2, ![M, N]⟩ bias hb) (ix2 p n))
    (Ideal.ofBits .f32 0x00000000#32) = _
  rw [layer_apply d hr hs hl0 hl1 hr0 hr1, Ideal.ofBits_zero_f32]

/-! ## The perceptron -/

/-- The first perceptron's output block at `(p, q)`. -/
theorem pay5_apply (x0 : Vec Ideal S256x256 .bf16) (x2 : Vec Ideal S256x512 .bf16) (x3 : Vec Ideal S1x512 .f32)
    (x4 : Vec Ideal S512x512 .bf16) (x5 : Vec Ideal S1x512 .f32) (x6 : Vec Ideal S512x256 .bf16) (x7 : Vec Ideal S1x256 .f32)
    (c0 c1 : Vc 512) (c2 : Vc 256) (h3 : ∀ n : Fin 512, x3 (ix2 (0 : Fin 1) n) = c0 (ix1 n))
    (h5 : ∀ n : Fin 512, x5 (ix2 (0 : Fin 1) n) = c1 (ix1 n)) (h7 : ∀ n : Fin 256, x7 (ix2 (0 : Fin 1) n) = c2 (ix1 n))
    (p q : Fin 256) :
    k0_pay5 (F := Ideal) x0 x2 x3 x4 x5 x6 x7 (ix2 p q) = mlp (fun k => x0 (ix2 p k)) x2 c0 x4 c1 x6 c2 q := by
  unfold k0_pay5 k0_pay4 mlp lay
  simp only [shapeCast_self]
  refine Eq.trans (layer_apply dot_S256x512_S512x256_S256x256_1_0_0_1_n_n rfl rfl d3_l0 d3_l1 d3_r0 d3_r1 _ _ _ _ p q) ?_
  rw [h7]
  refine congrArg (· + c2 (ix1 q)) (Finset.sum_congr rfl fun k _ => congrArg (· * x6 (ix2 k q)) ?_)
  refine Eq.trans (relu_layer_apply dot_S256x512_S512x512_S256x512_1_0_0_1_n_n rfl rfl d2_l0 d2_l1 d2_r0 d2_r1 _ _ _ _ _ p k) ?_
  rw [h5]
  refine congrArg (fun z => max (z + c1 (ix1 k)) 0) (Finset.sum_congr rfl fun k' _ => congrArg (· * x4 (ix2 k' k)) ?_)
  refine Eq.trans (relu_layer_apply dot_S256x256_S256x512_S256x512_1_0_0_1_n_n rfl rfl d1_l0 d1_l1 d1_r0 d1_r1 _ _ _ _ _ p k') ?_
  rw [h3]

/-- The second perceptron under tanh, at `(p, q)`. -/
theorem pay8_apply (v4 : FVec Ideal S256x256 .bf16) (x8 : Vec Ideal S256x512 .bf16) (x9 : Vec Ideal S1x512 .f32)
    (x10 : Vec Ideal S512x512 .bf16) (x11 : Vec Ideal S1x512 .f32) (x12 : Vec Ideal S512x256 .bf16) (x13 : Vec Ideal S1x256 .f32)
    (e0 e1 : Vc 512) (e2 : Vc 256) (h9 : ∀ n : Fin 512, x9 (ix2 (0 : Fin 1) n) = e0 (ix1 n))
    (h11 : ∀ n : Fin 512, x11 (ix2 (0 : Fin 1) n) = e1 (ix1 n)) (h13 : ∀ n : Fin 256, x13 (ix2 (0 : Fin 1) n) = e2 (ix1 n))
    (p q : Fin 256) :
    k0_pay8 (F := Ideal) v4 x8 x9 x10 x11 x12 x13 (ix2 p q) = Ideal.tanh (mlp (fun k => v4 (ix2 p k)) x8 e0 x10 e1 x12 e2 q) := by
  unfold k0_pay8 mlp lay
  simp only [shapeCast_self]
  show Ideal.tanh _ = _
  refine congrArg Ideal.tanh ?_
  refine Eq.trans (layer_apply dot_S256x512_S512x256_S256x256_1_0_0_1_n_n rfl rfl d3_l0 d3_l1 d3_r0 d3_r1 _ _ _ _ p q) ?_
  rw [h13]
  refine congrArg (· + e2 (ix1 q)) (Finset.sum_congr rfl fun k _ => congrArg (· * x12 (ix2 k q)) ?_)
  refine Eq.trans (relu_layer_apply dot_S256x512_S512x512_S256x512_1_0_0_1_n_n rfl rfl d2_l0 d2_l1 d2_r0 d2_r1 _ _ _ _ _ p k) ?_
  rw [h11]
  refine congrArg (fun z => max (z + e1 (ix1 k)) 0) (Finset.sum_congr rfl fun k' _ => congrArg (· * x10 (ix2 k' k)) ?_)
  refine Eq.trans (relu_layer_apply dot_S256x256_S256x512_S256x512_1_0_0_1_n_n rfl rfl d1_l0 d1_l1 d1_r0 d1_r1 _ _ _ _ _ p k') ?_
  rw [h9]

/-- The inverse variance: the exponential of zero minus the log-variance. -/
theorem pay9_apply (v4 : FVec Ideal S256x256 .bf16) (x8 : Vec Ideal S256x512 .bf16) (x9 : Vec Ideal S1x512 .f32)
    (x10 : Vec Ideal S512x512 .bf16) (x11 : Vec Ideal S1x512 .f32) (x12 : Vec Ideal S512x256 .bf16) (x13 : Vec Ideal S1x256 .f32)
    (p q : Fin 256) :
    k0_pay9 (F := Ideal) v4 x8 x9 x10 x11 x12 x13 (ix2 p q) = Ideal.exp (-(k0_pay8 (F := Ideal) v4 x8 x9 x10 x11 x12 x13 (ix2 p q))) := by
  unfold k0_pay9
  show Ideal.exp (Ideal.ofBits .f32 0x00000000#32 - _) = _
  rw [Ideal.ofBits_zero_f32, zero_sub]

/-! ## Reductions over one axis -/

theorem rowSum_apply (v : FVec Ideal S256x256 .f32) (h : S256x256.Reduces [1] S256) (hφ : FKind.Formats .f32)
    (hacc : (0x00000000#32 : BitVec 32) = FKind.add.neutral .f32 hφ) (p : Fin 256) :
    multiReduction .add [1] S256 v 0x00000000#32 h hφ hacc (ix1 p) = ∑ q : Fin 256, v (ix2 p q) :=
  (Ideal.multiReduction_add_single v _ h hφ hacc (ix1 p)).trans
    (Finset.sum_congr rfl fun q _ => congrArg v (funext fun c => Fin.ext (by match c with | ⟨0, _⟩ => rfl | ⟨1, _⟩ => rfl)))

theorem colSum_apply (v : FVec Ideal S1024x256 .f32) (h : S1024x256.Reduces [0] S256) (hφ : FKind.Formats .f32)
    (hacc : (0x00000000#32 : BitVec 32) = FKind.add.neutral .f32 hφ) (d : Fin 256) :
    multiReduction .add [0] S256 v 0x00000000#32 h hφ hacc (ix1 d) = ∑ j : Fin 1024, v (ix2 j d) :=
  (Ideal.multiReduction_add_single v _ h hφ hacc (ix1 d)).trans
    (Finset.sum_congr rfl fun j _ => congrArg v (funext fun c => Fin.ext (by match c with | ⟨0, _⟩ => rfl | ⟨1, _⟩ => rfl)))

theorem colSum1_apply (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ p : Fin 256, v (ix2 p u) :=
  (Ideal.multiReduction_add_single v _ h hφ hacc (ix1 u)).trans
    (Finset.sum_congr rfl fun p _ => congrArg v (funext fun c => Fin.ext (by match c with | ⟨0, _⟩ => rfl | ⟨1, _⟩ => rfl)))

end Cert.Club.Kern

end
-- ==== Proof.KernStep.lean ====
/-
  The accumulator's step at the ideal instance: what one grid point adds.

  With the point's blocks identified with the argument arrays — the 256 rows of the tile from domain_a, all of
  domain_b, the weight matrices, the bias rows — the value stored back into the 1×1 accumulator is its previous
  contents plus the tile's sum of the kernel's summand over its 256 × 256 entries (`tileSum` of ClubSpec).
-/
import proofs.«119348_j27986006901387_2_alg».proof.Proof.KernPayload

set_option maxRecDepth 16384

noncomputable section

open Idealize.ShloMosaic Idealize.ShloMosaic.ValueIdx

namespace Cert.Club.Kern

open Cert.KernelIdeal Cert.KernelIdeal.Gen

/-- The normalised row: an output block of the first perceptron divided, row by row, by its clamped norm. -/
theorem pay7_apply (v32 : FVec Ideal S256x256 .f32) (p q : Fin 256) :
    k0_pay7 (F := Ideal) v32 (mulf v32 v32) (ix2 p q) = Ideal.div (v32 (ix2 p q)) (nrm (fun d => v32 (ix2 p d))) := by
  unfold k0_pay7 nrm
  show Ideal.div (v32 (ix2 p q)) (broadcastTo S256x256 _ _ (ix2 p q)) = _
  refine congrArg (Ideal.div (v32 (ix2 p q))) ?_
  refine Eq.trans (Cert.ColumnLayout.broadcastTo_a1_ab_apply _ _ p q) ?_
  show max (Ideal.sqrt (shapeCast S256x1 _ _ (ix2 p (0 : Fin 1)))) (Ideal.ofBits .f32 0x2B8CBCCC#32) = _
  refine congrArg (fun z => max (Ideal.sqrt z) epsW) ?_
  refine Eq.trans (Cert.ColumnLayout.shapeCast_a_a1_apply _ _ p (0 : Fin 1)) ?_
  exact rowSum_apply _ _ _ _ p

/-- The column sums of domain_b, as the row `[1, 256]`. -/
theorem pay10_apply (x1 : Vec Ideal S1024x256 .f32) (d : Fin 256) :
    k0_pay10 (F := Ideal) x1 (ix2 (0 : Fin 1) d) = ∑ j : Fin 1024, x1 (ix2 j d) := by
  unfold k0_pay10
  refine Eq.trans (shapeCast_a_1a_apply _ _ (0 : Fin 1) d) ?_
  exact colSum_apply _ _ _ _ d

/-- The stored accumulator: its previous contents plus the double sum of the summand over the tile. -/
theorem pay1_apply (v5 : Vec Ideal S1024x256 .f32) (v40 v68 v71 : FVec Ideal S256x256 .f32) (v73 : FVec Ideal S1x256 .f32)
    (v97 : Vec Ideal S1x1 .f32) :
    k0_pay1 (F := Ideal) v5 v40 v68 v71 v73 v97 (ix2 (0 : Fin 1) (0 : Fin 1))
      = v97 (ix2 (0 : Fin 1) (0 : Fin 1)) + ∑ p : Fin 256, ∑ q : Fin 256,
          (max ((Ideal.div (∑ j : Fin 1024, v5 (ix2 j q) * v5 (ix2 j q)) nW
                  - (twoW * v40 (ix2 p q)) * Ideal.div (v73 (ix2 (0 : Fin 1) q)) nW) + v40 (ix2 p q) * v40 (ix2 p q)) 0
              * v71 (ix2 p q) + v68 (ix2 p q)) := by
  unfold k0_pay1
  simp only [shapeCast_self]
  show v97 (ix2 (0 : Fin 1) (0 : Fin 1)) + shapeCast S1x1 _ _ (ix2 (0 : Fin 1) (0 : Fin 1)) = _
  refine congrArg (v97 (ix2 (0 : Fin 1) (0 : Fin 1)) + ·) ?_
  refine Eq.trans (shapeCast_a_1a_apply _ _ (0 : Fin 1) (0 : Fin 1)) ?_
  refine Eq.trans (colSum1_apply _ _ _ _ (0 : Fin 1)) ?_
  refine Finset.sum_congr rfl fun p _ => ?_
  refine Eq.trans (Cert.ColumnLayout.shapeCast_a_a1_apply _ _ p (0 : Fin 1)) ?_
  refine Eq.trans (rowSum_apply _ _ _ _ p) ?_
  refine Finset.sum_congr rfl fun q _ => ?_
  show max ((broadcastTo S256x256 _ _ (ix2 p q) - (Ideal.ofBits .f32 0x40000000#32 * v40 (ix2 p q)) * broadcastTo S256x256 _ _ (ix2 p q))
      + v40 (ix2 p q) * v40 (ix2 p q)) (Ideal.ofBits .f32 0x00000000#32) * v71 (ix2 p q) + v68 (ix2 p q) = _
  rw [broadcastTo_1b_ab_apply, broadcastTo_1b_ab_apply, Ideal.ofBits_zero_f32]
  show max ((Ideal.div (shapeCast S1x256 _ _ (ix2 (0 : Fin 1) q)) nW - (twoW * v40 (ix2 p q)) * Ideal.div (v73 (ix2 (0 : Fin 1) q)) nW)
      + v40 (ix2 p q) * v40 (ix2 p q)) 0 * v71 (ix2 p q) + v68 (ix2 p q) = _
  rw [shapeCast_a_1a_apply]
  refine congrArg (fun z => max ((Ideal.div z nW - (twoW * v40 (ix2 p q)) * Ideal.div (v73 (ix2 (0 : Fin 1) q)) nW)
      + v40 (ix2 p q) * v40 (ix2 p q)) 0 * v71 (ix2 p q) + v68 (ix2 p q)) ?_
  exact colSum_apply _ _ _ _ q

/-- One grid point's step, in ClubSpec's terms. -/
theorem step_apply (t : Fin 4) (a b : Mat 1024 256) (w0 : Mat 256 512) (c0 : Vc 512) (w1 : Mat 512 512) (c1 : Vc 512)
    (w2 : Mat 512 256) (c2 : Vc 256) (u0 : Mat 256 512) (e0 : Vc 512) (u1 : Mat 512 512) (e1 : Vc 512) (u2 : Mat 512 256)
    (e2 : Vc 256)
    (x0 : Vec Ideal S256x256 .bf16) (x1 : Vec Ideal S1024x256 .f32) (x2 : Vec Ideal S256x512 .bf16) (x3 : Vec Ideal S1x512 .f32) (x4 : Vec Ideal S512x512 .bf16) (x5 : Vec Ideal S1x512 .f32) (x6 : Vec Ideal S512x256 .bf16) (x7 : Vec Ideal S1x256 .f32) (x8 : Vec Ideal S256x512 .bf16) (x9 : Vec Ideal S1x512 .f32) (x10 : Vec Ideal S512x512 .bf16) (x11 : Vec Ideal S1x512 .f32) (x12 : Vec Ideal S512x256 .bf16) (x13 : Vec Ideal S1x256 .f32)
    (h0 : ∀ p k : Fin 256, x0 (ix2 p k) = a (ix2 (tileRow t p) k)) (h1 : ∀ j, x1 j = b j) (h2 : ∀ j, x2 j = w0 j)
    (h3 : ∀ n : Fin 512, x3 (ix2 (0 : Fin 1) n) = c0 (ix1 n)) (h4 : ∀ j, x4 j = w1 j)
    (h5 : ∀ n : Fin 512, x5 (ix2 (0 : Fin 1) n) = c1 (ix1 n)) (h6 : ∀ j, x6 j = w2 j)
    (h7 : ∀ n : Fin 256, x7 (ix2 (0 : Fin 1) n) = c2 (ix1 n)) (h8 : ∀ j, x8 j = u0 j)
    (h9 : ∀ n : Fin 512, x9 (ix2 (0 : Fin 1) n) = e0 (ix1 n)) (h10 : ∀ j, x10 j = u1 j)
    (h11 : ∀ n : Fin 512, x11 (ix2 (0 : Fin 1) n) = e1 (ix1 n)) (h12 : ∀ j, x12 j = u2 j)
    (h13 : ∀ n : Fin 256, x13 (ix2 (0 : Fin 1) n) = e2 (ix1 n)) (acc : Vec Ideal S1x1 .f32) :
    step (F := Ideal) x0 x1 x2 x3 x4 x5 x6 x7 x8 x9 x10 x11 x12 x13 acc (ix2 (0 : Fin 1) (0 : Fin 1))
      = acc (ix2 (0 : Fin 1) (0 : Fin 1))
        + tileSum b (mu a w0 c0 w1 c1 w2 c2) (lv a u0 e0 u1 e1 u2 e2) (iv a u0 e0 u1 e1 u2 e2) t := by
  obtain rfl : x1 = b := funext h1
  obtain rfl : x2 = w0 := funext h2
  obtain rfl : x4 = w1 := funext h4
  obtain rfl : x6 = w2 := funext h6
  obtain rfl : x8 = u0 := funext h8
  obtain rfl : x10 = u1 := funext h10
  obtain rfl : x12 = u2 := funext h12
  have hrow : ∀ p : Fin 256, (fun k => x0 (ix2 p k)) = rowA a (tileRow t p) := fun p => funext fun k => h0 p k
  unfold step
  refine Eq.trans (pay1_apply _ _ _ _ _ _) ?_
  refine congrArg (acc (ix2 (0 : Fin 1) (0 : Fin 1)) + ·) ?_
  unfold tileSum
  refine Finset.sum_congr rfl fun p _ => Finset.sum_congr rfl fun q _ => ?_
  have e6 : k0_pay6 (F := Ideal) x0 x2 x3 x4 x5 x6 x7 = mulf (k0_pay5 x0 x2 x3 x4 x5 x6 x7) (k0_pay5 x0 x2 x3 x4 x5 x6 x7) := rfl
  have e4 : k0_pay4 (F := Ideal) x0 = x0 := shapeCast_self _ _
  have hm : k0_pay7 (F := Ideal) (k0_pay5 x0 x2 x3 x4 x5 x6 x7) (k0_pay6 x0 x2 x3 x4 x5 x6 x7) (ix2 p q)
      = mu a x2 c0 x4 c1 x6 c2 (tileRow t p) q := by
    rw [e6, pay7_apply]
    unfold mu
    rw [← hrow p]
    rw [pay5_apply x0 x2 x3 x4 x5 x6 x7 c0 c1 c2 h3 h5 h7 p q]
    refine congrArg (Ideal.div _) (congrArg nrm (funext fun d => ?_))
    exact pay5_apply x0 x2 x3 x4 x5 x6 x7 c0 c1 c2 h3 h5 h7 p d
  have hl : k0_pay8 (F := Ideal) (k0_pay4 x0) x8 x9 x10 x11 x12 x13 (ix2 p q) = lv a x8 e0 x10 e1 x12 e2 (tileRow t p) q := by
    rw [e4, pay8_apply x0 x8 x9 x10 x11 x12 x13 e0 e1 e2 h9 h11 h13 p q]
    unfold lv
    rw [← hrow p]
  have hv : k0_pay9 (F := Ideal) (k0_pay4 x0) x8 x9 x10 x11 x12 x13 (ix2 p q) = iv a x8 e0 x10 e1 x12 e2 (tileRow t p) q := by
    rw [pay9_apply, hl]
    rfl
  rw [hm, hl, hv, pay10_apply]
  rfl

end Cert.Club.Kern

end
-- ==== Proof.KernBlocks.lean ====
/-
  What each input window's block holds at a grid point, in terms of the launch memory's argument arrays.

  Before the region the host converts seven arrays to the narrower float format (at the exact instance a change of
  format is the identity) and reshapes six vectors [n] to rows [1, n].  Window 0 is the converted domain_a cut in four
  row blocks of 256: the block at point t holds rows 256·t … 256·t + 255, so its entry (p, k) is entry (256·t + p, k)
  of domain_a.  Every other window is a whole array with the constant index map (0, 0): its block is the array, and
  for a reshaped vector the entry (0, n) of the row is entry n of the vector.

  A block's coordinate on an axis is always (block index) × (block size) + (coordinate inside the block); the block
  indices are decided once over the four grid points.
-/
import proofs.«119348_j27986006901387_2_alg».proof.Proof.Gen.KernelIdeal.Frame
import proofs.«119348_j27986006901387_2_alg».proof.Proof.ClubSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.Club.KernBlocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD) (t : Fin cfg0.N)

/-! ## What the region finds in the arrays the host wrote: the conversions are the identity, the reshapes re-index -/

theorem V_main_v0 : (V m c main_v0 : S1024x256.Idx → EReal) = m ((c : Thread nD τ).loc main_arg0) := by
  show StableHlo.after hostOps0 (fun b => m (c, b)) (Proc.devRef .tc main_v0) = _
  after_results
  rfl

theorem V_main_v1 : (V m c main_v1 : S256x512.Idx → EReal) = m ((c : Thread nD τ).loc main_arg2) := by
  show StableHlo.after hostOps0 (fun b => m (c, b)) (Proc.devRef .tc main_v1) = _
  after_results
  rfl

theorem V_main_v2 : (V m c main_v2 : S512x512.Idx → EReal) = m ((c : Thread nD τ).loc main_arg4) := by
  show StableHlo.after hostOps0 (fun b => m (c, b)) (Proc.devRef .tc main_v2) = _
  after_results
  rfl

theorem V_main_v3 : (V m c main_v3 : S512x256.Idx → EReal) = m ((c : Thread nD τ).loc main_arg6) := by
  show StableHlo.after hostOps0 (fun b => m (c, b)) (Proc.devRef .tc main_v3) = _
  after_results
  rfl

theorem V_main_v4 : (V m c main_v4 : S256x512.Idx → EReal) = m ((c : Thread nD τ).loc main_arg8) := by
  show StableHlo.after hostOps0 (fun b => m (c, b)) (Proc.devRef .tc main_v4) = _
  after_results
  rfl

theorem V_main_v5 : (V m c main_v5 : S512x512.Idx → EReal) = m ((c : Thread nD τ).loc main_arg10) := by
  show StableHlo.after hostOps0 (fun b => m (c, b)) (Proc.devRef .tc main_v5) = _
  after_results
  rfl

theorem V_main_v6 : (V m c main_v6 : S512x256.Idx → EReal) = m ((c : Thread nD τ).loc main_arg12) := by
  show StableHlo.after hostOps0 (fun b => m (c, b)) (Proc.devRef .tc main_v6) = _
  after_results
  rfl

theorem V_main_v7 : (V m c main_v7 : S1x512.Idx → EReal)
    = shapeCast S1x512 (m ((c : Thread nD τ).loc main_arg3)) shapeCasts_S512_S1x512 := by
  show StableHlo.after hostOps0 (fun b => m (c, b)) (Proc.devRef .tc main_v7) = _
  after_results
  rfl

theorem V_main_v8 : (V m c main_v8 : S1x512.Idx → EReal)
    = shapeCast S1x512 (m ((c : Thread nD τ).loc main_arg5)) shapeCasts_S512_S1x512 := by
  show StableHlo.after hostOps0 (fun b => m (c, b)) (Proc.devRef .tc main_v8) = _
  after_results
  rfl

theorem V_main_v9 : (V m c main_v9 : S1x256.Idx → EReal)
    = shapeCast S1x256 (m ((c : Thread nD τ).loc main_arg7)) shapeCasts_S256_S1x256 := by
  show StableHlo.after hostOps0 (fun b => m (c, b)) (Proc.devRef .tc main_v9) = _
  after_results
  rfl

theorem V_main_v10 : (V m c main_v10 : S1x512.Idx → EReal)
    = shapeCast S1x512 (m ((c : Thread nD τ).loc main_arg9)) shapeCasts_S512_S1x512 := by
  show StableHlo.after hostOps0 (fun b => m (c, b)) (Proc.devRef .tc main_v10) = _
  after_results
  rfl

theorem V_main_v11 : (V m c main_v11 : S1x512.Idx → EReal)
    = shapeCast S1x512 (m ((c : Thread nD τ).loc main_arg11)) shapeCasts_S512_S1x512 := by
  show StableHlo.after hostOps0 (fun b => m (c, b)) (Proc.devRef .tc main_v11) = _
  after_results
  rfl

theorem V_main_v12 : (V m c main_v12 : S1x256.Idx → EReal)
    = shapeCast S1x256 (m ((c : Thread nD τ).loc main_arg13)) shapeCasts_S256_S1x256 := by
  show StableHlo.after hostOps0 (fun b => m (c, b)) (Proc.devRef .tc main_v12) = _
  after_results
  rfl

/-! ## The block indices, decided over the four grid points: window 0 at (t, 0), every other window at (0, 0) -/

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t
theorem index7 (t : Fin cfg0.N) : win0_7.index t 0 = 0 ∧ win0_7.index t 1 = 0 :=
  (by decide +kernel : ∀ t : Fin grid0.N, win0_7.index t 0 = 0 ∧ win0_7.index t 1 = 0) t
theorem index8 (t : Fin cfg0.N) : win0_8.index t 0 = 0 ∧ win0_8.index t 1 = 0 :=
  (by decide +kernel : ∀ t : Fin grid0.N, win0_8.index t 0 = 0 ∧ win0_8.index t 1 = 0) t
theorem index9 (t : Fin cfg0.N) : win0_9.index t 0 = 0 ∧ win0_9.index t 1 = 0 :=
  (by decide +kernel : ∀ t : Fin grid0.N, win0_9.index t 0 = 0 ∧ win0_9.index t 1 = 0) t
theorem index10 (t : Fin cfg0.N) : win0_10.index t 0 = 0 ∧ win0_10.index t 1 = 0 :=
  (by decide +kernel : ∀ t : Fin grid0.N, win0_10.index t 0 = 0 ∧ win0_10.index t 1 = 0) t
theorem index11 (t : Fin cfg0.N) : win0_11.index t 0 = 0 ∧ win0_11.index t 1 = 0 :=
  (by decide +kernel : ∀ t : Fin grid0.N, win0_11.index t 0 = 0 ∧ win0_11.index t 1 = 0) t
theorem index12 (t : Fin cfg0.N) : win0_12.index t 0 = 0 ∧ win0_12.index t 1 = 0 :=
  (by decide +kernel : ∀ t : Fin grid0.N, win0_12.index t 0 = 0 ∧ win0_12.index t 1 = 0) t
theorem index13 (t : Fin cfg0.N) : win0_13.index t 0 = 0 ∧ win0_13.index t 1 = 0 :=
  (by decide +kernel : ∀ t : Fin grid0.N, win0_13.index t 0 = 0 ∧ win0_13.index t 1 = 0) t

/-! ## The blocks -/

/-- Window 0 at point t: entry (p, k) of the block is entry (256·t + p, k) of domain_a. -/
theorem blk0 (t' : Fin 4) (ht : t'.val = t.val) (p k : Fin 256) :
    (iblk m c 0 t : Vec Ideal S256x256 .bf16) (ix2 p k)
      = m ((c : Thread nD τ).loc main_arg0) (ix2 (Cert.Club.tileRow t' p) k) := by
  have hi := index0 t
  unfold iblk
  rw [View.read_apply]
  show V m c main_v0 _ = _
  rw [V_main_v0]
  congr 1
  funext a
  apply Fin.ext
  match a with
  | ⟨0, _⟩ => show win0_0.index t 0 * 256 + 1 * p.val = 256 * t'.val + p.val; rw [hi.1]; omega
  | ⟨1, _⟩ => show win0_0.index t 1 * 256 + 1 * k.val = k.val; rw [hi.2]; omega

/-- Window 1: the whole of domain_b. -/
theorem blk1 (j : S1024x256.Idx) :
    (iblk m c 1 t : Vec Ideal S1024x256 .f32) j = m ((c : Thread nD τ).loc main_arg1) j := by
  have hi := index1 t
  unfold iblk
  rw [View.read_apply]
  show V m c main_arg1 _ = _
  rw [V_main_arg1]
  congr 1
  funext a
  apply Fin.ext
  match a with
  | ⟨0, _⟩ => show win0_1.index t 0 * 1024 + 1 * (j 0).val = (j 0).val; rw [hi.1]; omega
  | ⟨1, _⟩ => show win0_1.index t 1 * 256 + 1 * (j 1).val = (j 1).val; rw [hi.2]; omega

/-- Window 2: the first perceptron's first weight matrix. -/
theorem blk2 (j : S256x512.Idx) :
    (iblk m c 2 t : Vec Ideal S256x512 .bf16) j = m ((c : Thread nD τ).loc main_arg2) j := by
  have hi := index2 t
  unfold iblk
  rw [View.read_apply]
  show V m c main_v1 _ = _
  rw [V_main_v1]
  congr 1
  funext a
  apply Fin.ext
  match a with
  | ⟨0, _⟩ => show win0_2.index t 0 * 256 + 1 * (j 0).val = (j 0).val; rw [hi.1]; omega
  | ⟨1, _⟩ => show win0_2.index t 1 * 512 + 1 * (j 1).val = (j 1).val; rw [hi.2]; omega

/-- Window 3: the first perceptron's first offset vector, as a row. -/
theorem blk3 (n : Fin 512) :
    (iblk m c 3 t : Vec Ideal S1x512 .f32) (ix2 (0 : Fin 1) n) = m ((c : Thread nD τ).loc main_arg3) (ix1 n) := by
  have hi := index3 t
  unfold iblk
  rw [View.read_apply]
  show V m c main_v7 _ = _
  rw [V_main_v7]
  refine Eq.trans (congrArg _ ?_)
    (shapeCast_a_1a_apply (m ((c : Thread nD τ).loc main_arg3)) shapeCasts_S512_S1x512 0 n)
  funext a
  apply Fin.ext
  match a with
  | ⟨0, _⟩ => show win0_3.index t 0 * 1 + 1 * 0 = 0; rw [hi.1]
  | ⟨1, _⟩ => show win0_3.index t 1 * 512 + 1 * n.val = n.val; rw [hi.2]; omega

/-- Window 4: the first perceptron's second weight matrix. -/
theorem blk4 (j : S512x512.Idx) :
    (iblk m c 4 t : Vec Ideal S512x512 .bf16) j = m ((c : Thread nD τ).loc main_arg4) j := by
  have hi := index4 t
  unfold iblk
  rw [View.read_apply]
  show V m c main_v2 _ = _
  rw [V_main_v2]
  congr 1
  funext a
  apply Fin.ext
  match a with
  | ⟨0, _⟩ => show win0_4.index t 0 * 512 + 1 * (j 0).val = (j 0).val; rw [hi.1]; omega
  | ⟨1, _⟩ => show win0_4.index t 1 * 512 + 1 * (j 1).val = (j 1).val; rw [hi.2]; omega

/-- Window 5: the first perceptron's second offset vector, as a row. -/
theorem blk5 (n : Fin 512) :
    (iblk m c 5 t : Vec Ideal S1x512 .f32) (ix2 (0 : Fin 1) n) = m ((c : Thread nD τ).loc main_arg5) (ix1 n) := by
  have hi := index5 t
  unfold iblk
  rw [View.read_apply]
  show V m c main_v8 _ = _
  rw [V_main_v8]
  refine Eq.trans (congrArg _ ?_)
    (shapeCast_a_1a_apply (m ((c : Thread nD τ).loc main_arg5)) shapeCasts_S512_S1x512 0 n)
  funext a
  apply Fin.ext
  match a with
  | ⟨0, _⟩ => show win0_5.index t 0 * 1 + 1 * 0 = 0; rw [hi.1]
  | ⟨1, _⟩ => show win0_5.index t 1 * 512 + 1 * n.val = n.val; rw [hi.2]; omega

/-- Window 6: the first perceptron's third weight matrix. -/
theorem blk6 (j : S512x256.Idx) :
    (iblk m c 6 t : Vec Ideal S512x256 .bf16) j = m ((c : Thread nD τ).loc main_arg6) j := by
  have hi := index6 t
  unfold iblk
  rw [View.read_apply]
  show V m c main_v3 _ = _
  rw [V_main_v3]
  congr 1
  funext a
  apply Fin.ext
  match a with
  | ⟨0, _⟩ => show win0_6.index t 0 * 512 + 1 * (j 0).val = (j 0).val; rw [hi.1]; omega
  | ⟨1, _⟩ => show win0_6.index t 1 * 256 + 1 * (j 1).val = (j 1).val; rw [hi.2]; omega

/-- Window 7: the first perceptron's third offset vector, as a row. -/
theorem blk7 (n : Fin 256) :
    (iblk m c 7 t : Vec Ideal S1x256 .f32) (ix2 (0 : Fin 1) n) = m ((c : Thread nD τ).loc main_arg7) (ix1 n) := by
  have hi := index7 t
  unfold iblk
  rw [View.read_apply]
  show V m c main_v9 _ = _
  rw [V_main_v9]
  refine Eq.trans (congrArg _ ?_)
    (shapeCast_a_1a_apply (m ((c : Thread nD τ).loc main_arg7)) shapeCasts_S256_S1x256 0 n)
  funext a
  apply Fin.ext
  match a with
  | ⟨0, _⟩ => show win0_7.index t 0 * 1 + 1 * 0 = 0; rw [hi.1]
  | ⟨1, _⟩ => show win0_7.index t 1 * 256 + 1 * n.val = n.val; rw [hi.2]; omega

/-- Window 8: the second perceptron's first weight matrix. -/
theorem blk8 (j : S256x512.Idx) :
    (iblk m c 8 t : Vec Ideal S256x512 .bf16) j = m ((c : Thread nD τ).loc main_arg8) j := by
  have hi := index8 t
  unfold iblk
  rw [View.read_apply]
  show V m c main_v4 _ = _
  rw [V_main_v4]
  congr 1
  funext a
  apply Fin.ext
  match a with
  | ⟨0, _⟩ => show win0_8.index t 0 * 256 + 1 * (j 0).val = (j 0).val; rw [hi.1]; omega
  | ⟨1, _⟩ => show win0_8.index t 1 * 512 + 1 * (j 1).val = (j 1).val; rw [hi.2]; omega

/-- Window 9: the second perceptron's first offset vector, as a row. -/
theorem blk9 (n : Fin 512) :
    (iblk m c 9 t : Vec Ideal S1x512 .f32) (ix2 (0 : Fin 1) n) = m ((c : Thread nD τ).loc main_arg9) (ix1 n) := by
  have hi := index9 t
  unfold iblk
  rw [View.read_apply]
  show V m c main_v10 _ = _
  rw [V_main_v10]
  refine Eq.trans (congrArg _ ?_)
    (shapeCast_a_1a_apply (m ((c : Thread nD τ).loc main_arg9)) shapeCasts_S512_S1x512 0 n)
  funext a
  apply Fin.ext
  match a with
  | ⟨0, _⟩ => show win0_9.index t 0 * 1 + 1 * 0 = 0; rw [hi.1]
  | ⟨1, _⟩ => show win0_9.index t 1 * 512 + 1 * n.val = n.val; rw [hi.2]; omega

/-- Window 10: the second perceptron's second weight matrix. -/
theorem blk10 (j : S512x512.Idx) :
    (iblk m c 10 t : Vec Ideal S512x512 .bf16) j = m ((c : Thread nD τ).loc main_arg10) j := by
  have hi := index10 t
  unfold iblk
  rw [View.read_apply]
  show V m c main_v5 _ = _
  rw [V_main_v5]
  congr 1
  funext a
  apply Fin.ext
  match a with
  | ⟨0, _⟩ => show win0_10.index t 0 * 512 + 1 * (j 0).val = (j 0).val; rw [hi.1]; omega
  | ⟨1, _⟩ => show win0_10.index t 1 * 512 + 1 * (j 1).val = (j 1).val; rw [hi.2]; omega

/-- Window 11: the second perceptron's second offset vector, as a row. -/
theorem blk11 (n : Fin 512) :
    (iblk m c 11 t : Vec Ideal S1x512 .f32) (ix2 (0 : Fin 1) n) = m ((c : Thread nD τ).loc main_arg11) (ix1 n) := by
  have hi := index11 t
  unfold iblk
  rw [View.read_apply]
  show V m c main_v11 _ = _
  rw [V_main_v11]
  refine Eq.trans (congrArg _ ?_)
    (shapeCast_a_1a_apply (m ((c : Thread nD τ).loc main_arg11)) shapeCasts_S512_S1x512 0 n)
  funext a
  apply Fin.ext
  match a with
  | ⟨0, _⟩ => show win0_11.index t 0 * 1 + 1 * 0 = 0; rw [hi.1]
  | ⟨1, _⟩ => show win0_11.index t 1 * 512 + 1 * n.val = n.val; rw [hi.2]; omega

/-- Window 12: the second perceptron's third weight matrix. -/
theorem blk12 (j : S512x256.Idx) :
    (iblk m c 12 t : Vec Ideal S512x256 .bf16) j = m ((c : Thread nD τ).loc main_arg12) j := by
  have hi := index12 t
  unfold iblk
  rw [View.read_apply]
  show V m c main_v6 _ = _
  rw [V_main_v6]
  congr 1
  funext a
  apply Fin.ext
  match a with
  | ⟨0, _⟩ => show win0_12.index t 0 * 512 + 1 * (j 0).val = (j 0).val; rw [hi.1]; omega
  | ⟨1, _⟩ => show win0_12.index t 1 * 256 + 1 * (j 1).val = (j 1).val; rw [hi.2]; omega

/-- Window 13: the second perceptron's third offset vector, as a row. -/
theorem blk13 (n : Fin 256) :
    (iblk m c 13 t : Vec Ideal S1x256 .f32) (ix2 (0 : Fin 1) n) = m ((c : Thread nD τ).loc main_arg13) (ix1 n) := by
  have hi := index13 t
  unfold iblk
  rw [View.read_apply]
  show V m c main_v12 _ = _
  rw [V_main_v12]
  refine Eq.trans (congrArg _ ?_)
    (shapeCast_a_1a_apply (m ((c : Thread nD τ).loc main_arg13)) shapeCasts_S256_S1x256 0 n)
  funext a
  apply Fin.ext
  match a with
  | ⟨0, _⟩ => show win0_13.index t 0 * 1 + 1 * 0 = 0; rw [hi.1]
  | ⟨1, _⟩ => show win0_13.index t 1 * 256 + 1 * n.val = n.val; rw [hi.2]; omega

end Cert.Club.KernBlocks

end
-- ==== Proof.KernRun.lean ====
/-
  The kernel's run, read as a value.

  The accumulator after grid point n holds (((0 + S 0) + S 1) + …) + S n, where S t is tile t's sum (`tileSum`) of the
  kernel's summand over the launch memory's arrays: each point's step adds its tile's sum to what the point before
  left.  The last point also writes the accumulator divided by 1024 into the 1×1 output block, which is written back
  to the result array at that point only and covers it; the line after the region reshapes that 1×1 array into the
  scalar result.  So the run ends with the result at `kernelVal` of ClubSpec and the arguments unchanged.
-/
import proofs.«119348_j27986006901387_2_alg».proof.Proof.KernStep
import proofs.«119348_j27986006901387_2_alg».proof.Proof.KernBlocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Club.Kern

open Cert.KernelIdeal Cert.KernelIdeal.Gen

variable (m : (ℓ : Loc nD τ sig) → Buf (Elt Ideal) ℓ) (ρ : Dev nD → PrngReg)

/-! ## The argument arrays and the tiles' sums -/

abbrev A0 (c : Dev nD) : Mat 1024 256 := m ((c : Thread nD τ).loc main_arg0)
abbrev A1 (c : Dev nD) : Mat 1024 256 := m ((c : Thread nD τ).loc main_arg1)
abbrev A2 (c : Dev nD) : Mat 256 512 := m ((c : Thread nD τ).loc main_arg2)
abbrev A3 (c : Dev nD) : Vc 512 := m ((c : Thread nD τ).loc main_arg3)
abbrev A4 (c : Dev nD) : Mat 512 512 := m ((c : Thread nD τ).loc main_arg4)
abbrev A5 (c : Dev nD) : Vc 512 := m ((c : Thread nD τ).loc main_arg5)
abbrev A6 (c : Dev nD) : Mat 512 256 := m ((c : Thread nD τ).loc main_arg6)
abbrev A7 (c : Dev nD) : Vc 256 := m ((c : Thread nD τ).loc main_arg7)
abbrev A8 (c : Dev nD) : Mat 256 512 := m ((c : Thread nD τ).loc main_arg8)
abbrev A9 (c : Dev nD) : Vc 512 := m ((c : Thread nD τ).loc main_arg9)
abbrev A10 (c : Dev nD) : Mat 512 512 := m ((c : Thread nD τ).loc main_arg10)
abbrev A11 (c : Dev nD) : Vc 512 := m ((c : Thread nD τ).loc main_arg11)
abbrev A12 (c : Dev nD) : Mat 512 256 := m ((c : Thread nD τ).loc main_arg12)
abbrev A13 (c : Dev nD) : Vc 256 := m ((c : Thread nD τ).loc main_arg13)

/-- Tile `t`'s sum over the launch memory's arrays. -/
def tsum (c : Dev nD) (t : Fin 4) : EReal := tileSum (A1 m c) (mu (A0 m c) (A2 m c) (A3 m c) (A4 m c) (A5 m c) (A6 m c) (A7 m c)) (lv (A0 m c) (A8 m c) (A9 m c) (A10 m c) (A11 m c) (A12 m c) (A13 m c)) (iv (A0 m c) (A8 m c) (A9 m c) (A10 m c) (A11 m c) (A12 m c) (A13 m c)) t

/-- The kernel's total over the launch memory's arrays. -/
def total (c : Dev nD) : EReal := kernelVal (A1 m c) (mu (A0 m c) (A2 m c) (A3 m c) (A4 m c) (A5 m c) (A6 m c) (A7 m c)) (lv (A0 m c) (A8 m c) (A9 m c) (A10 m c) (A11 m c) (A12 m c) (A13 m c)) (iv (A0 m c) (A8 m c) (A9 m c) (A10 m c) (A11 m c) (A12 m c) (A13 m c))

/-! ## The accumulator point by point -/

/-- One point's step on the point's blocks adds the tile's sum. -/
theorem acc_at (c : Dev nD) (t : Fin cfg0.N) (t' : Fin 4) (ht : t'.val = t.val) (acc : Vec Ideal S1x1 .f32) :
    step (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) acc (ix2 (0 : Fin 1) (0 : Fin 1)) = acc (ix2 (0 : Fin 1) (0 : Fin 1)) + tsum m c t' :=
  step_apply t' (A0 m c) (A1 m c) (A2 m c) (A3 m c) (A4 m c) (A5 m c) (A6 m c) (A7 m c) (A8 m c) (A9 m c) (A10 m c) (A11 m c) (A12 m c) (A13 m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (KernBlocks.blk0 m c t t' ht) (KernBlocks.blk1 m c t) (KernBlocks.blk2 m c t) (KernBlocks.blk3 m c t) (KernBlocks.blk4 m c t) (KernBlocks.blk5 m c t) (KernBlocks.blk6 m c t) (KernBlocks.blk7 m c t) (KernBlocks.blk8 m c t) (KernBlocks.blk9 m c t) (KernBlocks.blk10 m c t) (KernBlocks.blk11 m c t) (KernBlocks.blk12 m c t) (KernBlocks.blk13 m c t) acc

/-- The zero block the first point stores. -/
theorem pay3_zero : k0_pay3 (F := Ideal) (ix2 (0 : Fin 1) (0 : Fin 1)) = 0 := by
  unfold k0_pay3
  rw [shapeCast_self]
  exact Ideal.ofBits_zero_f32

theorem scr_zero (c : Dev nD) (h : 0 < cfg0.N) :
    (outsAt0 m c 0 h).2 (ix2 (0 : Fin 1) (0 : Fin 1)) = 0 + tsum m c 0 := by
  have e := congrArg Prod.snd (outsAt0_A m c ⟨0, h⟩ rfl (by intro h'; dsimp only at h'; omega))
  rw [sout_A] at e
  have e' := congrFun e (ix2 (0 : Fin 1) (0 : Fin 1))
  refine e'.trans ?_
  refine Eq.trans (acc_at m c ⟨0, h⟩ 0 rfl _) ?_
  rw [pay3_zero]

theorem scr_succ (c : Dev nD) (n : ℕ) (hn : n + 1 < cfg0.N) (t' : Fin 4) (ht : t'.val = n + 1) :
    (outsAt0 m c (n + 1) hn).2 (ix2 (0 : Fin 1) (0 : Fin 1))
      = (outsAt0 m c n (Nat.lt_of_succ_lt hn)).2 (ix2 (0 : Fin 1) (0 : Fin 1)) + tsum m c t' := by
  have hN : cfg0.N = 4 := N_0
  have h0 : ¬(⟨n + 1, hn⟩ : Fin cfg0.N).val % 4 = 0 := by dsimp only; omega
  by_cases h3 : (⟨n + 1, hn⟩ : Fin cfg0.N).val % 4 = 3
  · have e := congrArg Prod.snd (outsAt0_C m c ⟨n + 1, hn⟩ h0 h3)
    rw [sout_C] at e
    exact (congrFun e (ix2 (0 : Fin 1) (0 : Fin 1))).trans (acc_at m c ⟨n + 1, hn⟩ t' ht _)
  · have e := congrArg Prod.snd (outsAt0_B m c ⟨n + 1, hn⟩ h0 h3)
    rw [sout_B] at e
    exact (congrFun e (ix2 (0 : Fin 1) (0 : Fin 1))).trans (acc_at m c ⟨n + 1, hn⟩ t' ht _)

/-- The last grid point. -/
abbrev t3 : Fin cfg0.N := ⟨3, by rw [show cfg0.N = 4 from N_0]; decide⟩

/-- What the output block holds after the last point: the kernel's total. -/
theorem out_last (c : Dev nD) :
    (outsAt0 m c 3 t3.isLt).1 (ix2 (0 : Fin 1) (0 : Fin 1)) = total m c := by
  have h0 : ¬t3.val % 4 = 0 := by decide
  have h3 : t3.val % 4 = 3 := by decide
  have e := congrArg Prod.fst (outsAt0_C m c t3 h0 h3)
  rw [out_C] at e
  have e' := congrFun e (ix2 (0 : Fin 1) (0 : Fin 1))
  refine e'.trans ?_
  show Ideal.div (step (F := Ideal) _ _ _ _ _ _ _ _ _ _ _ _ _ _ _ (ix2 (0 : Fin 1) (0 : Fin 1))) nW = _
  rw [acc_at m c t3 3 rfl]
  have s2 := scr_succ m c 1 (by rw [show cfg0.N = 4 from N_0]; decide) 2 rfl
  have s1 := scr_succ m c 0 (by rw [show cfg0.N = 4 from N_0]; decide) 1 rfl
  have s0 := scr_zero m c (by rw [show cfg0.N = 4 from N_0]; decide)
  rw [s0] at s1
  rw [s1] at s2
  refine Eq.trans (congrArg (fun z => Ideal.div (z + tsum m c 3) nW) s2) ?_
  rfl

/-! ## The result array and the scalar result -/

/-- The 1×1 result array after the run. -/
abbrev result (c : Dev nD) : Buf (Elt Ideal) ((c : Thread nD τ).loc main_v13) := (outsAt0 m c 3 t3.isLt).1

/-- The one write-back, at the last point, writes the output block, which is the whole 1×1 array. -/
theorem flushed_eq (c : Dev nD) (t : Fin cfg0.N) (hf : (cfg0.win 14).flush t = true) :
    (dats m 0 c).flushed 14 t = ((cfg0.win 14).blk t).view.read (Elt Ideal) (result m c) := by
  have hN : cfg0.N = 4 := N_0
  have h3 : t.val = 3 := by have := (flush0_14 t).mp hf; have := t.isLt; omega
  obtain rfl : t = t3 := Fin.ext h3
  show (cfg0.win 14).cut (grid0.coords t3) ((dats m 0 c).after 14 t3) = _
  rw [after0_14]
  have hz' : (fun a => win0_14.index t3 a * main_v13.ty.shape.size a) = fun _ => 0 := funext fun a => by fin_cases a <;> decide
  exact (Memref.read_access_unit_zero (Elt Ideal) main_v13 hz' (fun a => by rw [congrFun hz' a]; simp) (result m c)).symm

/-- So the result array ends holding the last point's output block. -/
theorem final_o (c : Dev nD) : (dats m 0 c).arrAt 14 cfg0.N = result m c :=
  (dats m 0 c).arrAt_eq_of_cover 14 (result m c) (flushed_eq m c) fun i =>
    ⟨t3, (flush0_14 t3).mpr rfl, by
      show i ∈ ((View.whole main_v13).slice (win0_14.rect t3)).set
      rw [View.set_slice_whole, Rect.mem_set_unit]
      intro a
      have h0 : (i 0 : Nat) < 1 := (i 0).isLt
      have h1 : (i 1 : Nat) < 1 := (i 1).isLt
      match a with
      | ⟨0, _⟩ => show win0_14.index t3 0 * win0_14.size 0 ≤ (i 0 : Nat) ∧ (i 0 : Nat) < win0_14.index t3 0 * win0_14.size 0 + win0_14.xsize (grid0.coords t3) 0
                  rw [show win0_14.index t3 0 * win0_14.size 0 = 0 from by decide +kernel, show win0_14.xsize (grid0.coords t3) 0 = 1 from by decide +kernel]; omega
      | ⟨1, _⟩ => show win0_14.index t3 1 * win0_14.size 1 ≤ (i 1 : Nat) ∧ (i 1 : Nat) < win0_14.index t3 1 * win0_14.size 1 + win0_14.xsize (grid0.coords t3) 1
                  rw [show win0_14.index t3 1 * win0_14.size 1 = 0 from by decide +kernel, show win0_14.xsize (grid0.coords t3) 1 = 1 from by decide +kernel]; omega⟩

/-- The line after the region reshapes the 1×1 array into the scalar: the result is the kernel's total. -/
theorem tail_eq (c : Dev nD) :
    Pipeline.afterTail₀ cfgs (dats m) 0 (V0 m) [hostOps1] c main_v14 = fun _ => total m c := by
  unfold Pipeline.afterTail₀
  show StableHlo.after hostOps1 _ (Proc.devRef .tc main_v14) = _
  after_results
  rw [(Pipeline.withArrays_arr spec0 launch0.win.arr_inj c _ _ 14).trans (final_o m c)]
  funext j
  obtain rfl : j = ix0 := eq_ix0 j
  refine Eq.trans (shapeCast_apply _ _ ix0 (ix2 (0 : Fin 1) (0 : Fin 1)) (by decide)) ?_
  exact out_last m c

/-- The run, read: the scalar result at the kernel's total, the fourteen arguments unchanged. -/
theorem run : θ_run defs (onTc (τ := τ) (main (F := Ideal))) ⟨m, fun _ => 0, ρ⟩ fun r => ∀ c : Dev nD,
      r.2.mem ((c : Thread nD τ).loc main_v14) = (fun _ => total m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩) (run_main (F := Ideal) m ρ)

end Cert.Club.Kern

end
-- ==== Proof.RefMlp.lean ====
/-
  The reference program's perceptron, read at one entry.

  The program computes a layer as a contraction over the shared axis, adds the bias (a row broadcast down the 1024 rows),
  and takes the maximum with a broadcast zero.  Read at entry (i, n) this is
      max (Σ_k x i k · w k n + c n) 0,
  the specification's `lay` of row i followed by the maximum with zero.  Three layers give `mlp` of row i.  The program
  spells the same perceptron four times (each network once for each of the two losses); the four spellings are the same
  function of their arguments, so one reading serves all of them.
-/
import proofs.«119348_j27986006901387_2_alg».proof.Proof.ClubSpec
import proofs.«119348_j27986006901387_2_alg».proof.Proof.Gen.ReferenceIdeal.Read

noncomputable section

namespace Cert.Club.RefMlp

open Idealize.ShloMosaic Idealize.ShloMosaic.ValueIdx Cert.ReferenceIdeal Cert.ReferenceIdeal.Read

variable (a : (⟨S1024x256, .f32⟩ : BufTy).Contents (Elt Ideal)) (w0 : (⟨S256x512, .f32⟩ : BufTy).Contents (Elt Ideal)) (c0 : (⟨S512, .f32⟩ : BufTy).Contents (Elt Ideal))
  (w1 : (⟨S512x512, .f32⟩ : BufTy).Contents (Elt Ideal)) (c1 : (⟨S512, .f32⟩ : BufTy).Contents (Elt Ideal)) (w2 : (⟨S512x256, .f32⟩ : BufTy).Contents (Elt Ideal)) (c2 : (⟨S256, .f32⟩ : BufTy).Contents (Elt Ideal))

/-- First layer at entry (i, n): the affine layer of row i, then the maximum with zero. -/
theorem layer1 (i : Fin 1024) (n : Fin 512) :
    val_main_v4 (F := Ideal) a w0 c0 (ix2 i n) = max (lay (rowA a i) w0 c0 n) 0 := by
  have e1 : ∀ k : Fin 256, lidx_main_v0 (ix2 i n) k = ix2 i k := fun k => funext fun a => Fin.ext (by match a with | ⟨0, _⟩ => rfl | ⟨1, _⟩ => rfl)
  have e2 : ∀ k : Fin 256, ridx_main_v0 (ix2 i n) k = ix2 k n := fun k => funext fun a => Fin.ext (by match a with | ⟨0, _⟩ => rfl | ⟨1, _⟩ => rfl)
  have e3 : idx_main_v1 (idx_main_v2 (ix2 i n)) = ix1 n := funext fun a => Fin.ext (by match a with | ⟨0, _⟩ => rfl)
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-- Second layer at entry (i, n), over the first layer's row. -/
theorem layer2 (i : Fin 1024) (n : Fin 512) :
    val_main_v9 (F := Ideal) a w0 c0 w1 c1 (ix2 i n)
      = max (lay (fun k => max (lay (rowA a i) w0 c0 k) 0) w1 c1 n) 0 := by
  have e1 : ∀ k : Fin 512, lidx_main_v5 (ix2 i n) k = ix2 i k := fun k => funext fun a => Fin.ext (by match a with | ⟨0, _⟩ => rfl | ⟨1, _⟩ => rfl)
  have e2 : ∀ k : Fin 512, ridx_main_v5 (ix2 i n) k = ix2 k n := fun k => funext fun a => Fin.ext (by match a with | ⟨0, _⟩ => rfl | ⟨1, _⟩ => rfl)
  have e3 : idx_main_v6 (idx_main_v7 (ix2 i n)) = ix1 n := funext fun a => Fin.ext (by match a with | ⟨0, _⟩ => rfl)
  rw [val_main_v9_apply, val_main_v8_apply, val_main_v5_apply, val_main_v7_apply, val_main_v6_apply,
    val_main_call1_v0_apply, val_main_call1_cst_apply]
  simp only [e1, e2, e3, layer1, Ideal.maximumf_def, Ideal.addf_def, Ideal.ofBits_def, Ideal.ofBits_zero_f32]
  rfl

/-- The perceptron's output at entry (i, d). -/
theorem mlp_v13 (i : Fin 1024) (d : Fin 256) :
    val_main_v13 (F := Ideal) a w0 c0 w1 c1 w2 c2 (ix2 i d) = mlp (rowA a i) w0 c0 w1 c1 w2 c2 d := by
  have e1 : ∀ k : Fin 512, lidx_main_v10 (ix2 i d) k = ix2 i k := fun k => funext fun a => Fin.ext (by match a with | ⟨0, _⟩ => rfl | ⟨1, _⟩ => rfl)
  have e2 : ∀ k : Fin 512, ridx_main_v10 (ix2 i d) k = ix2 k d := fun k => funext fun a => Fin.ext (by match a with | ⟨0, _⟩ => rfl | ⟨1, _⟩ => rfl)
  have e3 : idx_main_v11 (idx_main_v12 (ix2 i d)) = ix1 d := funext fun a => Fin.ext (by match a with | ⟨0, _⟩ => rfl)
  rw [val_main_v13_apply, val_main_v10_apply, val_main_v12_apply, val_main_v11_apply]
  simp only [e1, e2, e3, layer2, Ideal.addf_def]
  rfl

/-- The other three spellings of the perceptron are the same function of their arguments. -/
theorem v32_eq : val_main_v32 (F := Ideal) a w0 c0 w1 c1 w2 c2 = val_main_v13 (F := Ideal) a w0 c0 w1 c1 w2 c2 := rfl
theorem v71_eq : val_main_v71 (F := Ideal) a w0 c0 w1 c1 w2 c2 = val_main_v13 (F := Ideal) a w0 c0 w1 c1 w2 c2 := rfl
theorem v90_eq : val_main_v90 (F := Ideal) a w0 c0 w1 c1 w2 c2 = val_main_v13 (F := Ideal) a w0 c0 w1 c1 w2 c2 := rfl

theorem mlp_v32 (i : Fin 1024) (d : Fin 256) :
    val_main_v32 (F := Ideal) a w0 c0 w1 c1 w2 c2 (ix2 i d) = mlp (rowA a i) w0 c0 w1 c1 w2 c2 d := by
  rw [v32_eq]; exact mlp_v13 a w0 c0 w1 c1 w2 c2 i d
theorem mlp_v71 (i : Fin 1024) (d : Fin 256) :
    val_main_v71 (F := Ideal) a w0 c0 w1 c1 w2 c2 (ix2 i d) = mlp (rowA a i) w0 c0 w1 c1 w2 c2 d := by
  rw [v71_eq]; exact mlp_v13 a w0 c0 w1 c1 w2 c2 i d
theorem mlp_v90 (i : Fin 1024) (d : Fin 256) :
    val_main_v90 (F := Ideal) a w0 c0 w1 c1 w2 c2 (ix2 i d) = mlp (rowA a i) w0 c0 w1 c1 w2 c2 d := by
  rw [v90_eq]; exact mlp_v13 a w0 c0 w1 c1 w2 c2 i d

end Cert.Club.RefMlp

end
-- ==== Proof.RefMoments.lean ====
/-
  The reference program's mean, log-variance and inverse variance, read at one entry.

  The first perceptron's output row h is divided entrywise by its norm: the program squares h, sums the squares along
  the row starting from zero, takes the square root, takes the maximum with the small positive constant, and spreads the
  resulting column back over the row.  At entry (i, d) this is h d / max (sqrt (Σ_k h k · h k)) eps, the specification's
  `mu`.  The second perceptron's output goes through tanh (`lv`), and the exponential of its negation is `iv`.  The
  program computes each of the three twice; the second spellings are the same functions of their arguments.
-/
import proofs.«119348_j27986006901387_2_alg».proof.Proof.ClubSpec
import proofs.«119348_j27986006901387_2_alg».proof.Proof.Gen.ReferenceIdeal.Read
import proofs.«119348_j27986006901387_2_alg».proof.Proof.RefMlp

noncomputable section

namespace Cert.Club.RefMoments

open Idealize.ShloMosaic Idealize.ShloMosaic.ValueIdx Cert.ReferenceIdeal Cert.ReferenceIdeal.Read

variable (a : (⟨S1024x256, .f32⟩ : BufTy).Contents (Elt Ideal)) (w0 : (⟨S256x512, .f32⟩ : BufTy).Contents (Elt Ideal)) (c0 : (⟨S512, .f32⟩ : BufTy).Contents (Elt Ideal))
  (w1 : (⟨S512x512, .f32⟩ : BufTy).Contents (Elt Ideal)) (c1 : (⟨S512, .f32⟩ : BufTy).Contents (Elt Ideal)) (w2 : (⟨S512x256, .f32⟩ : BufTy).Contents (Elt Ideal)) (c2 : (⟨S256, .f32⟩ : BufTy).Contents (Elt Ideal))

/-- The normalised row at entry (i, d). -/
theorem mu_v18 (i : Fin 1024) (d : Fin 256) :
    val_main_v18 (F := Ideal) a w0 c0 w1 c1 w2 c2 (ix2 i d) = mu a w0 c0 w1 c1 w2 c2 i d := by
  have e1 : ∀ k : Fin 256, idx_main_call2_v1 (idx_main_call2_v2 (idx_main_v17 (ix2 i d))) k = ix2 i k :=
    fun k => funext fun a => Fin.ext (by match a with | ⟨0, _⟩ => rfl | ⟨1, _⟩ => rfl)
  rw [val_main_v18_apply, val_main_v17_apply, val_main_v16_apply, val_main_v14_apply, val_main_call2_v2_apply,
    val_main_call2_v1_apply, val_main_call2_cst_apply, val_main_v15_apply, val_main_cst_apply]
  simp only [e1, val_main_call2_v0_apply, RefMlp.mlp_v13, Ideal.hostDivf_def, Ideal.maximumf_def,
    Ideal.hostUnary_sqrt_def, Ideal.mulf_def, Ideal.ofBits_def, Ideal.ofBits_zero_f32, zero_add]
  rfl

/-- The log-variance at entry (i, d). -/
theorem lv_v33 (i : Fin 1024) (d : Fin 256) :
    val_main_v33 (F := Ideal) a w0 c0 w1 c1 w2 c2 (ix2 i d) = lv a w0 c0 w1 c1 w2 c2 i d := by
  rw [val_main_v33_apply, RefMlp.mlp_v32]
  simp only [Ideal.hostUnary_tanh_def]
  rfl

/-- The inverse variance at entry (i, d). -/
theorem iv_v35 (i : Fin 1024) (d : Fin 256) :
    val_main_v35 (F := Ideal) a w0 c0 w1 c1 w2 c2 (ix2 i d) = iv a w0 c0 w1 c1 w2 c2 i d := by
  rw [val_main_v35_apply, val_main_v34_apply, lv_v33]
  simp only [Ideal.hostUnary_exp_def, Ideal.hostNegf_def, Ideal.negf_def]
  rfl

/-- The second spellings are the same functions of their arguments. -/
theorem v76_eq : val_main_v76 (F := Ideal) a w0 c0 w1 c1 w2 c2 = val_main_v18 (F := Ideal) a w0 c0 w1 c1 w2 c2 := rfl
theorem v91_eq : val_main_v91 (F := Ideal) a w0 c0 w1 c1 w2 c2 = val_main_v33 (F := Ideal) a w0 c0 w1 c1 w2 c2 := rfl
theorem v95_eq : val_main_v95 (F := Ideal) a w0 c0 w1 c1 w2 c2 = val_main_v35 (F := Ideal) a w0 c0 w1 c1 w2 c2 := rfl

theorem mu_v76 (i : Fin 1024) (d : Fin 256) :
    val_main_v76 (F := Ideal) a w0 c0 w1 c1 w2 c2 (ix2 i d) = mu a w0 c0 w1 c1 w2 c2 i d := by
  rw [v76_eq]; exact mu_v18 a w0 c0 w1 c1 w2 c2 i d
theorem lv_v91 (i : Fin 1024) (d : Fin 256) :
    val_main_v91 (F := Ideal) a w0 c0 w1 c1 w2 c2 (ix2 i d) = lv a w0 c0 w1 c1 w2 c2 i d := by
  rw [v91_eq]; exact lv_v33 a w0 c0 w1 c1 w2 c2 i d
theorem iv_v95 (i : Fin 1024) (d : Fin 256) :
    val_main_v95 (F := Ideal) a w0 c0 w1 c1 w2 c2 (ix2 i d) = iv a w0 c0 w1 c1 w2 c2 i d := by
  rw [v95_eq]; exact iv_v35 a w0 c0 w1 c1 w2 c2 i d

end Cert.Club.RefMoments

end
-- ==== Proof.RefTotal.lean ====
/-
  The reference program's total, as the specification's `refVal`.

  Each of the three row sums runs along a row of 256 entries, starting from zero:
    * the positive term of row i adds -(b i d - mu i d)² · iv i d - lv i d;
    * the negative term first spreads domain_b and the means over a 1024 × 1024 × 256 array whose entry (i, j, d) is
      b j d - mu i d, squares it, sums over j starting from zero and divides by 1024, and then adds
      -(that mean) · iv i d - lv i d;
    * the second loss adds (b i d - mu i d)² · iv i d + lv i d.
  The total is 1 · (Σ_i (pos i - neg i)) / 1024 + 1 · (Σ_i prob i) / 1024, both sums over the 1024 rows starting from zero.
-/
import proofs.«119348_j27986006901387_2_alg».proof.Proof.ClubSpec
import proofs.«119348_j27986006901387_2_alg».proof.Proof.Gen.ReferenceIdeal.Read
import proofs.«119348_j27986006901387_2_alg».proof.Proof.RefMoments

noncomputable section

namespace Cert.Club.RefTotal

open Idealize.ShloMosaic Idealize.ShloMosaic.ValueIdx Cert.ReferenceIdeal Cert.ReferenceIdeal.Read
open Cert.Club.RefMoments

/-- A sum over the index set of a one-axis array is the sum over the axis. -/
theorem sum_idx1 {n : Nat} (f : (⟨1, ![n]⟩ : Shape).Idx → EReal) : ∑ j, f j = ∑ i : Fin n, f (ix1 i) :=
  Fintype.sum_equiv ⟨fun j => j 0, fun i => ix1 i, fun j => (eq_ix1 j).symm, fun _ => rfl⟩ f (fun i => f (ix1 i))
    fun j => congrArg f (eq_ix1 j)

variable (x0 x1 : (⟨S1024x256, .f32⟩ : BufTy).Contents (Elt Ideal)) (x2 : (⟨S256x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal))
  (x8 : (⟨S256x512, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal)) (x12 : (⟨S512x256, .f32⟩ : BufTy).Contents (Elt Ideal)) (x13 : (⟨S256, .f32⟩ : BufTy).Contents (Elt Ideal))

/-- The positive term's row sum. -/
theorem pos_v41 (i : Fin 1024) :
    val_main_v41 (F := Ideal) x0 x1 x2 x3 x4 x5 x6 x7 x8 x9 x10 x11 x12 x13 (ix1 i) = posRow x1 (mu x0 x2 x3 x4 x5 x6 x7) (lv x0 x8 x9 x10 x11 x12 x13) (iv x0 x8 x9 x10 x11 x12 x13) i := by
  have e1 : ∀ k : Fin 256, idx_main_v41 (ix1 i) k = ix2 i k := fun k => funext fun a => Fin.ext (by match a with | ⟨0, _⟩ => rfl | ⟨1, _⟩ => rfl)
  rw [val_main_v41_apply, val_main_cst_0_apply]
  simp only [e1, val_main_v40_apply, val_main_v39_apply, val_main_v38_apply, val_main_v37_apply, val_main_v36_apply,
    mu_v18, lv_v33, iv_v35, Ideal.addf_def, Ideal.subf_def, Ideal.mulf_def, Ideal.hostDivf_def, Ideal.hostNegf_def, Ideal.negf_def, Ideal.ofBits_def,
    Ideal.ofBits_zero_f32, zero_add]
  rfl

/-- The pairwise squared differences summed over the rows of domain_b, at entry (i, d). -/
theorem sq_v48 (i : Fin 1024) (d : Fin 256) :
    val_main_v48 (F := Ideal) x0 x1 x2 x3 x4 x5 x6 x7 (ix2 i d)
      = ∑ j : Fin 1024, (x1 (ix2 j d) - mu x0 x2 x3 x4 x5 x6 x7 i d) * (x1 (ix2 j d) - mu x0 x2 x3 x4 x5 x6 x7 i d) := by
  have e1 : ∀ j : Fin 1024, idx_main_v42 (idx_main_v44 (idx_main_v48 (ix2 i d) j)) = ix2 j d := fun j => funext fun a => Fin.ext (by match a with | ⟨0, _⟩ => rfl | ⟨1, _⟩ => rfl)
  have e2 : ∀ j : Fin 1024, idx_main_v43 (idx_main_v45 (idx_main_v48 (ix2 i d) j)) = ix2 i d := fun j => funext fun a => Fin.ext (by match a with | ⟨0, _⟩ => rfl | ⟨1, _⟩ => rfl)
  rw [val_main_v48_apply, val_main_cst_1_apply]
  simp only [val_main_v47_apply, val_main_v46_apply, val_main_v44_apply, val_main_v42_apply, val_main_v45_apply,
    val_main_v43_apply, e1, e2, mu_v18, Ideal.addf_def, Ideal.subf_def, Ideal.mulf_def, Ideal.hostDivf_def, Ideal.hostNegf_def, Ideal.negf_def, Ideal.ofBits_def,
    Ideal.ofBits_zero_f32, zero_add]

/-- The negative term's row sum. -/
theorem neg_v54 (i : Fin 1024) :
    val_main_v54 (F := Ideal) x0 x1 x2 x3 x4 x5 x6 x7 x8 x9 x10 x11 x12 x13 (ix1 i) = negRow x1 (mu x0 x2 x3 x4 x5 x6 x7) (lv x0 x8 x9 x10 x11 x12 x13) (iv x0 x8 x9 x10 x11 x12 x13) i := by
  have e1 : ∀ k : Fin 256, idx_main_v54 (ix1 i) k = ix2 i k := fun k => funext fun a => Fin.ext (by match a with | ⟨0, _⟩ => rfl | ⟨1, _⟩ => rfl)
  rw [val_main_v54_apply, val_main_cst_3_apply]
  simp only [e1, val_main_v53_apply, val_main_v52_apply, val_main_v51_apply, val_main_v50_apply, sq_v48,
    val_main_v49_apply, val_main_cst_2_apply, lv_v33, iv_v35, Ideal.addf_def, Ideal.subf_def, Ideal.mulf_def, Ideal.hostDivf_def, Ideal.hostNegf_def, Ideal.negf_def, Ideal.ofBits_def,
    Ideal.ofBits_zero_f32, zero_add]
  rfl

/-- The second loss's row sum. -/
theorem prob_v98 (i : Fin 1024) :
    val_main_v98 (F := Ideal) x0 x1 x2 x3 x4 x5 x6 x7 x8 x9 x10 x11 x12 x13 (ix1 i) = probRow x1 (mu x0 x2 x3 x4 x5 x6 x7) (lv x0 x8 x9 x10 x11 x12 x13) (iv x0 x8 x9 x10 x11 x12 x13) i := by
  have e1 : ∀ k : Fin 256, idx_main_v98 (ix1 i) k = ix2 i k := fun k => funext fun a => Fin.ext (by match a with | ⟨0, _⟩ => rfl | ⟨1, _⟩ => rfl)
  rw [val_main_v98_apply, val_main_cst_7_apply]
  simp only [e1, val_main_v97_apply, val_main_v96_apply, val_main_v93_apply, val_main_v92_apply,
    mu_v76, lv_v91, iv_v95, Ideal.addf_def, Ideal.subf_def, Ideal.mulf_def, Ideal.hostDivf_def, Ideal.hostNegf_def, Ideal.negf_def, Ideal.ofBits_def,
    Ideal.ofBits_zero_f32, zero_add]
  rfl

/-- The reference's result is the specification's total, at the one index of a scalar. -/
theorem ref_eq :
    val_main_v103 (F := Ideal) x0 x1 x2 x3 x4 x5 x6 x7 x8 x9 x10 x11 x12 x13
      = fun _ => refVal x1 (mu x0 x2 x3 x4 x5 x6 x7) (lv x0 x8 x9 x10 x11 x12 x13) (iv x0 x8 x9 x10 x11 x12 x13) := by
  funext j
  rw [val_main_v103_apply, val_main_v101_apply, val_main_v102_apply, val_main_v57_apply, val_main_v100_apply,
    val_main_v56_apply, val_main_v99_apply, val_main_cst_4_apply, val_main_cst_8_apply, val_main_cst_5_apply,
    val_main_cst_9_apply, val_main_cst_10_apply, val_main_cst_11_apply, sum_idx1, sum_idx1]
  simp only [val_main_v55_apply, pos_v41, neg_v54, prob_v98, Ideal.addf_def, Ideal.subf_def, Ideal.mulf_def, Ideal.hostDivf_def, Ideal.hostNegf_def, Ideal.negf_def, Ideal.ofBits_def,
    Ideal.ofBits_zero_f32, zero_add]
  rfl

end Cert.Club.RefTotal

end
-- ==== Proof.FiniteInputs.lean ====
/-
  From the precondition to real entries.

  The precondition computes, for each of the fourteen float arrays, the conjunction over all its entries of
  |x| < +∞, and the conjunction of the fourteen bits.  At the exact instance an entry is an extended real and
  |x| is max x (-x); the word 0x7F800000 denotes +∞.  An extended real whose absolute value is below +∞ is
  neither -∞ nor +∞, so it is the coercion of a real number.  Hence: if the precondition's bit is 1, every
  entry of every array is (the coercion of) a real.
-/
import Idealize.ShloMosaic.Lib.ReduceAll
import Idealize.ShloMosaic.Lib.ValueIdx
import Idealize.ShloMosaic.PureOps.Ideal
import proofs.«119348_j27986006901387_2_alg».proof.Pre_finite_inputs

noncomputable section

namespace Cert.Club.FiniteInputs

open Idealize.ShloMosaic Idealize.ShloMosaic.ValueIdx
open Cert.Pre_finite_inputs

/-- The scalar shape has exactly one index. -/
instance subsingleton_scalar_idx : Subsingleton S_.Idx := ⟨fun a b => funext fun d => d.elim0⟩

/-- The single-precision word 0x7F800000 denotes +∞. -/
theorem inf_word : Ideal.ofBits .f32 0x7F800000#32 = (⊤ : EReal) := by
  simp [Ideal.ofBits, Ideal.ieee]

/-- An extended real whose absolute value max x (-x) is strictly below +∞ is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One array's bit: if the conjunction over all entries of |x| < +∞ is 1, every entry is a real. -/
theorem reals_of_bit {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
          (cmpf .olt (Host.absf x) (broadcastInDim s ![] bc (constant (F := Ideal) S_ .f32 0x7F800000#32)))
          (constantI S_ 1 1#1) hr hu ix0 = 1#1) :
    ∀ j, ∃ r : ℝ, x j = (r : EReal) := by
  intro j
  have hj := Host.reduce_andi_all _ _ hr hu ix0 e j
  have hj' : Ideal.cmp .olt (max (x j) (-(x j))) (Ideal.ofBits .f32 0x7F800000#32) = 1#1 := hj
  rw [inf_word] at hj'
  exact real_of_abs_lt_top (x j) hj'

variable [Facts]

/-- The precondition decoded: if its bit is 1, every entry of each of the fourteen arrays is a real. -/
theorem reals_of_pre
    (x0 : FVec Ideal S1024x256 .f32) (x1 : FVec Ideal S1024x256 .f32) (x2 : FVec Ideal S256x512 .f32)
    (x3 : FVec Ideal S512 .f32) (x4 : FVec Ideal S512x512 .f32) (x5 : FVec Ideal S512 .f32)
    (x6 : FVec Ideal S512x256 .f32) (x7 : FVec Ideal S256 .f32) (x8 : FVec Ideal S256x512 .f32)
    (x9 : FVec Ideal S512 .f32) (x10 : FVec Ideal S512x512 .f32) (x11 : FVec Ideal S512 .f32)
    (x12 : FVec Ideal S512x256 .f32) (x13 : FVec Ideal S256 .f32)
    (h : Cert.Pre_finite_inputs.fn (F := Ideal) x0 x1 x2 x3 x4 x5 x6 x7 x8 x9 x10 x11 x12 x13 = fun _ => 1#1) :
    (∀ j, ∃ r : ℝ, x0 j = (r : EReal)) ∧ (∀ j, ∃ r : ℝ, x1 j = (r : EReal)) ∧
    (∀ j, ∃ r : ℝ, x2 j = (r : EReal)) ∧ (∀ j, ∃ r : ℝ, x3 j = (r : EReal)) ∧
    (∀ j, ∃ r : ℝ, x4 j = (r : EReal)) ∧ (∀ j, ∃ r : ℝ, x5 j = (r : EReal)) ∧
    (∀ j, ∃ r : ℝ, x6 j = (r : EReal)) ∧ (∀ j, ∃ r : ℝ, x7 j = (r : EReal)) ∧
    (∀ j, ∃ r : ℝ, x8 j = (r : EReal)) ∧ (∀ j, ∃ r : ℝ, x9 j = (r : EReal)) ∧
    (∀ j, ∃ r : ℝ, x10 j = (r : EReal)) ∧ (∀ j, ∃ r : ℝ, x11 j = (r : EReal)) ∧
    (∀ j, ∃ r : ℝ, x12 j = (r : EReal)) ∧ (∀ j, ∃ r : ℝ, x13 j = (r : EReal)) := by
  have e := congrFun h ix0
  dsimp only [fn, fn_part1, fn_part2, fn_part3, fn_part4, andi] at e
  simp only [IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨reals_of_bit x0 _ _ _ e0, reals_of_bit x1 _ _ _ e1, reals_of_bit x2 _ _ _ e2, reals_of_bit x3 _ _ _ e3,
    reals_of_bit x4 _ _ _ e4, reals_of_bit x5 _ _ _ e5, reals_of_bit x6 _ _ _ e6, reals_of_bit x7 _ _ _ e7,
    reals_of_bit x8 _ _ _ e8, reals_of_bit x9 _ _ _ e9, reals_of_bit x10 _ _ _ e10, reals_of_bit x11 _ _ _ e11,
    reals_of_bit x12 _ _ _ e12, reals_of_bit x13 _ _ _ e13⟩

end Cert.Club.FiniteInputs

end
-- ==== Proof.LibERealCoe.lean ====
/-
  The coercion of the reals into the extended reals, through finite sums and through a masked maximum.

  * `ERealCoe.coe_finset_sum`: the coercion commutes with a finite sum.
  * `ERealCoe.fold_max_bot_ite_coe`: a maximum, started at `⊥`, over a finite set of entries that are either
    the coercion of a real (where a predicate holds) or `⊥` (where it fails) is the coercion of the largest
    real among the entries where the predicate holds, as soon as there is one.
-/
import Mathlib.Data.EReal.Inv
import Mathlib.Data.Finset.Fold
import Mathlib.Data.Finset.Lattice.Fold
import Mathlib.Algebra.BigOperators.Group.Finset.Basic

open scoped BigOperators

namespace ERealCoe

/-- The coercion `ℝ → EReal` commutes with a finite sum. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A maximum from `⊥` over entries that are a real where `p` holds and `⊥` elsewhere is the largest of the
    reals where `p` holds. -/
theorem fold_max_bot_ite_coe {ι : Type*} (s : Finset ι) (p : ι → Prop) [DecidablePred p] (f : ι → ℝ)
    (H : (s.filter p).Nonempty) :
    s.fold max (⊥ : EReal) (fun i => if p i then ((f i : ℝ) : EReal) else ⊥)
      = (((s.filter p).sup' H f : ℝ) : EReal) := by
  apply le_antisymm
  · rw [Finset.fold_max_le]
    refine ⟨bot_le, fun i hi => ?_⟩
    by_cases hp : p i
    · rw [if_pos hp]
      exact EReal.coe_le_coe_iff.2 (Finset.le_sup' f (Finset.mem_filter.2 ⟨hi, hp⟩))
    · rw [if_neg hp]
      exact bot_le
  · rw [Finset.le_fold_max]
    obtain ⟨i, hi, he⟩ := Finset.exists_mem_eq_sup' H f
    obtain ⟨his, hp⟩ := Finset.mem_filter.1 hi
    exact Or.inr ⟨i, his, by rw [if_pos hp, he]⟩

end ERealCoe
-- ==== Proof.RealEntries.lean ====
/-
  The derived quantities are real numbers.

  Call an extended real "real" when it is the coercion of a real number.  Real extended reals are closed under
  addition, multiplication, maximum and finite sums, so an affine layer and the three-layer perceptron send rows of
  reals (with real weights) to rows of reals.  The square root of a real that is ≥ 0 is real, and a sum of squares
  of reals is ≥ 0; the clamped norm is therefore a real, and it is positive because the clamp constant is a positive
  real.  Division of a real by a nonzero real, tanh of a real, and exp of the negation of a real are real.  Hence
  every mean, every log-variance and every inverse variance is a real.
-/
import proofs.«119348_j27986006901387_2_alg».proof.Proof.ClubSpec
import proofs.«119348_j27986006901387_2_alg».proof.Proof.LibERealCoe

noncomputable section

namespace Cert.Club.RealEntries

open Idealize.ShloMosaic Idealize.ShloMosaic.ValueIdx
open Cert.Club

/-- An extended real that is the coercion of a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (hf : ∀ i, IsReal (f i)) : IsReal (∑ i ∈ s, f i) := by
  choose g hg using hf
  refine ⟨∑ i ∈ s, g i, ?_⟩
  rw [ERealCoe.coe_finset_sum]
  exact Finset.sum_congr rfl fun i _ => hg i

/-- An affine layer sends a row of reals, with real weights and offsets, to a row of reals. -/
theorem lay_real {K N : ℕ} (x : Fin K → EReal) (w : Mat K N) (c : Vc N) (hx : ∀ k, IsReal (x k))
    (hw : ∀ j, IsReal (w j)) (hc : ∀ j, IsReal (c j)) (n : Fin N) : IsReal (lay x w c n) := by
  unfold lay
  exact (IsReal.sum _ _ fun k => (hx k).mul (hw _)).add (hc _)

/-- The perceptron sends a row of reals to a row of reals. -/
theorem mlp_real (x : Fin 256 → EReal) (w0 : Mat 256 512) (c0 : Vc 512) (w1 : Mat 512 512) (c1 : Vc 512)
    (w2 : Mat 512 256) (c2 : Vc 256) (hx : ∀ k, IsReal (x k)) (hw0 : ∀ j, IsReal (w0 j)) (hc0 : ∀ j, IsReal (c0 j))
    (hw1 : ∀ j, IsReal (w1 j)) (hc1 : ∀ j, IsReal (c1 j)) (hw2 : ∀ j, IsReal (w2 j)) (hc2 : ∀ j, IsReal (c2 j))
    (d : Fin 256) : IsReal (mlp x w0 c0 w1 c1 w2 c2 d) := by
  unfold mlp
  refine lay_real _ w2 c2 (fun k => IsReal.max ?_ IsReal.zero) hw2 hc2 d
  refine lay_real _ w1 c1 (fun k => IsReal.max ?_ IsReal.zero) hw1 hc1 k
  exact lay_real x w0 c0 hx hw0 hc0 k

/-- The clamp constant's word: sign 0, exponent field 87, fraction field 834764, that is
    (2 ^ 23 + 834764) · 2 ^ (87 - 127 - 23) = 9223372 / 2 ^ 63. -/
theorem epsW_eq : epsW = (((9223372 : ℝ) / 2 ^ 63 : ℝ) : EReal) := by
  show Ideal.ofBits .f32 0x2B8CBCCC#32 = _
  simp [Ideal.ofBits, Ideal.ieee, -EReal.coe_mul]; norm_num

/-- The clamp constant is a positive real. -/
theorem epsW_pos : ∃ e : ℝ, 0 < e ∧ epsW = (e : EReal) := ⟨_, by positivity, epsW_eq⟩

/-- The clamped norm of a row of reals is a positive real. -/
theorem nrm_pos (h : Fin 256 → EReal) (hh : ∀ d, IsReal (h d)) : ∃ y : ℝ, 0 < y ∧ nrm h = (y : EReal) := by
  choose g hg using hh
  obtain ⟨e, he, hee⟩ := epsW_pos
  have hs : (∑ d : Fin 256, h d * h d) = ((∑ d : Fin 256, g d * g d : ℝ) : EReal) := by
    rw [ERealCoe.coe_finset_sum]
    exact Finset.sum_congr rfl fun d _ => by rw [hg d, EReal.coe_mul]
  have h0 : ¬ (∑ d : Fin 256, g d * g d : ℝ) < 0 :=
    not_lt.2 (Finset.sum_nonneg fun d _ => mul_self_nonneg (g d))
  refine ⟨max (Real.sqrt (∑ d : Fin 256, g d * g d)) e, lt_max_of_lt_right he, ?_⟩
  unfold nrm
  rw [hs, Ideal.sqrt_coe, if_neg h0, hee]
  exact (EReal.coe_strictMono.monotone.map_max).symm

section Main

variable (a : Mat 1024 256) (w0 : Mat 256 512) (c0 : Vc 512) (w1 : Mat 512 512) (c1 : Vc 512) (w2 : Mat 512 256)
  (c2 : Vc 256)

/-- Every mean is a real. -/
theorem mu_real (ha : ∀ j, ∃ r : ℝ, a j = (r : EReal)) (hw0 : ∀ j, ∃ r : ℝ, w0 j = (r : EReal))
    (hc0 : ∀ j, ∃ r : ℝ, c0 j = (r : EReal)) (hw1 : ∀ j, ∃ r : ℝ, w1 j = (r : EReal))
    (hc1 : ∀ j, ∃ r : ℝ, c1 j = (r : EReal)) (hw2 : ∀ j, ∃ r : ℝ, w2 j = (r : EReal))
    (hc2 : ∀ j, ∃ r : ℝ, c2 j = (r : EReal)) :
    ∀ i d, ∃ r : ℝ, mu a w0 c0 w1 c1 w2 c2 i d = (r : EReal) := by
  intro i d
  have hm : ∀ d, IsReal (mlp (rowA a i) w0 c0 w1 c1 w2 c2 d) :=
    mlp_real _ w0 c0 w1 c1 w2 c2 (fun k => ha _) hw0 hc0 hw1 hc1 hw2 hc2
  obtain ⟨y, hy, hn⟩ := nrm_pos _ hm
  obtain ⟨x, hx⟩ := hm d
  refine ⟨x * (1 / y), ?_⟩
  unfold mu
  rw [hn, Ideal.div_coe (ne_of_gt hy), hx, EReal.coe_mul]

/-- Every log-variance is a real. -/
theorem lv_real (ha : ∀ j, ∃ r : ℝ, a j = (r : EReal)) (hw0 : ∀ j, ∃ r : ℝ, w0 j = (r : EReal))
    (hc0 : ∀ j, ∃ r : ℝ, c0 j = (r : EReal)) (hw1 : ∀ j, ∃ r : ℝ, w1 j = (r : EReal))
    (hc1 : ∀ j, ∃ r : ℝ, c1 j = (r : EReal)) (hw2 : ∀ j, ∃ r : ℝ, w2 j = (r : EReal))
    (hc2 : ∀ j, ∃ r : ℝ, c2 j = (r : EReal)) :
    ∀ i d, ∃ r : ℝ, lv a w0 c0 w1 c1 w2 c2 i d = (r : EReal) := by
  intro i d
  obtain ⟨x, hx⟩ := mlp_real (rowA a i) w0 c0 w1 c1 w2 c2 (fun k => ha _) hw0 hc0 hw1 hc1 hw2 hc2 d
  refine ⟨Real.tanh x, ?_⟩
  unfold lv
  rw [hx, Ideal.tanh_coe]

/-- Every inverse variance is a real. -/
theorem iv_real (ha : ∀ j, ∃ r : ℝ, a j = (r : EReal)) (hw0 : ∀ j, ∃ r : ℝ, w0 j = (r : EReal))
    (hc0 : ∀ j, ∃ r : ℝ, c0 j = (r : EReal)) (hw1 : ∀ j, ∃ r : ℝ, w1 j = (r : EReal))
    (hc1 : ∀ j, ∃ r : ℝ, c1 j = (r : EReal)) (hw2 : ∀ j, ∃ r : ℝ, w2 j = (r : EReal))
    (hc2 : ∀ j, ∃ r : ℝ, c2 j = (r : EReal)) :
    ∀ i d, ∃ r : ℝ, iv a w0 c0 w1 c1 w2 c2 i d = (r : EReal) := by
  intro i d
  obtain ⟨x, hx⟩ := lv_real a w0 c0 w1 c1 w2 c2 ha hw0 hc0 hw1 hc1 hw2 hc2 i d
  refine ⟨Real.exp (-x), ?_⟩
  unfold iv
  rw [hx, ← EReal.coe_neg, Ideal.exp_coe]

end Main

end Cert.Club.RealEntries

end
-- ==== Proof.LibMeanSquare.lean ====
/-
  GENERAL LEMMAS on finite sums of real numbers.

  * `mean_sq_dev`: the mean of the squared deviations of n reals from a number m is the mean of their squares minus
    2·m·(their mean) plus m²:   (Σⱼ (βⱼ - m)²) / n = (Σⱼ βⱼ²) / n - 2·m·((Σⱼ βⱼ) / n) + m².
  * `mean_sq_dev_nonneg`: that mean is nonnegative.
  * `sum_tiles`: a sum over `Fin (T * P)` is the sum over the T tiles of the sums over each tile's P entries, entry p of
    tile t being number P·t + p.
-/
import Mathlib.Algebra.BigOperators.Fin
import Mathlib.Algebra.Order.BigOperators.Ring.Finset
import Mathlib.Data.Real.Basic
import Mathlib.Logic.Equiv.Fin.Basic
import Mathlib.Tactic.Ring
import Mathlib.Tactic.FieldSimp
import Mathlib.Tactic.Positivity

open scoped BigOperators

namespace MeanSquare

/-- The mean of squared deviations from `m`, expanded. -/
theorem mean_sq_dev {n : ℕ} (hn : n ≠ 0) (β : Fin n → ℝ) (m : ℝ) :
    (∑ j : Fin n, (β j - m) * (β j - m)) / n
      = (∑ j : Fin n, β j * β j) / n - 2 * m * ((∑ j : Fin n, β j) / n) + m * m := by
  have hn' : (n : ℝ) ≠ 0 := Nat.cast_ne_zero.2 hn
  have h : ∑ j : Fin n, (β j - m) * (β j - m)
      = (∑ j : Fin n, β j * β j) - 2 * m * (∑ j : Fin n, β j) + n * (m * m) := by
    have e : ∀ j : Fin n, (β j - m) * (β j - m) = β j * β j - 2 * m * β j + m * m := fun j => by ring
    simp only [e, Finset.sum_add_distrib, Finset.sum_sub_distrib, ← Finset.mul_sum, Finset.sum_const, Finset.card_univ,
      Fintype.card_fin, nsmul_eq_mul]
    ring
  rw [h]
  field_simp

/-- The mean of squared deviations is nonnegative. -/
theorem mean_sq_dev_nonneg {n : ℕ} (β : Fin n → ℝ) (m : ℝ) :
    0 ≤ (∑ j : Fin n, (β j - m) * (β j - m)) / n :=
  div_nonneg (Finset.sum_nonneg fun j _ => mul_self_nonneg _) (Nat.cast_nonneg n)

/-- A sum over `Fin (T * P)` by tiles of `P` consecutive entries. -/
theorem sum_tiles {M : Type*} [AddCommMonoid M] (T P : ℕ) (f : Fin (T * P) → M) :
    ∑ i : Fin (T * P), f i = ∑ t : Fin T, ∑ p : Fin P, f (finProdFinEquiv (t, p)) := by
  rw [← Fintype.sum_prod_type' (f := fun t p => f (finProdFinEquiv (t, p)))]
  exact (Fintype.sum_equiv finProdFinEquiv _ _ fun _ => rfl).symm

end MeanSquare
-- ==== Proof.ClubAlgebra.lean ====
/-
  The two totals of ClubSpec are equal when every entry involved is a real number.

  With b, mu, lv, iv real, write D i d for the mean over the 1024 rows j of (b j d - mu i d)².  Expanding the square,
      D i d = Eb2 d - 2 · mu i d · Eb d + mu i d ²          (LibMeanSquare.mean_sq_dev),
  and D i d ≥ 0, so the kernel's maximum with zero does nothing and its summand at (i, d) is D i d · iv i d + lv i d.
  In the reference, pos i and prob i cancel term by term and -neg i = Σ_d (D i d · iv i d + lv i d); so both totals
  are (Σ_i Σ_d (D i d · iv i d + lv i d)) / 1024, the kernel's i running tile by tile (LibMeanSquare.sum_tiles).
  On the extended reals these steps (distributing, cancelling) need finite entries: every quantity is first shown to
  be the coercion of a real, and the identity is then proved over the reals.
-/
import proofs.«119348_j27986006901387_2_alg».proof.Proof.ClubSpec
import proofs.«119348_j27986006901387_2_alg».proof.Proof.LibERealCoe
import proofs.«119348_j27986006901387_2_alg».proof.Proof.LibMeanSquare
import Idealize.ShloMosaic.PureOps.Ideal.Laws

noncomputable section

namespace Cert.Club

open Idealize.ShloMosaic Idealize.ShloMosaic.ValueIdx

/-! ## The float words as reals -/

theorem nW_eq : nW = ((1024 : ℝ) : EReal) := by
  simp [Ideal.ofBits, Ideal.ieee, -EReal.coe_mul]; norm_num
theorem twoW_eq : twoW = ((2 : ℝ) : EReal) := by
  simp [Ideal.ofBits, Ideal.ieee, -EReal.coe_mul]; norm_num
theorem oneW_eq : oneW = ((1 : ℝ) : EReal) := by
  simp [Ideal.ofBits, Ideal.ieee, -EReal.coe_mul]; norm_num

/-- Division by the word 1024 is multiplication by the real 1/1024. -/
theorem div_nW (x : EReal) : Ideal.div x nW = x * ((1 / 1024 : ℝ) : EReal) := by
  rw [nW_eq]; exact Ideal.div_coe (by norm_num) x

theorem coe_max (x y : ℝ) : max (x : EReal) (y : EReal) = ((max x y : ℝ) : EReal) :=
  (EReal.coe_strictMono.monotone.map_max).symm

/-! ## The real quantities -/

section Real

variable (β : (⟨2, ![1024, 256]⟩ : Shape).Idx → ℝ) (μ l v : Fin 1024 → Fin 256 → ℝ)

/-- The mean over the rows j of (b j d - mu i d)². -/
def dev (i : Fin 1024) (d : Fin 256) : ℝ :=
  (∑ j : Fin 1024, (β (ix2 j d) - μ i d) * (β (ix2 j d) - μ i d)) * (1 / 1024)

/-- The common summand. -/
def term (i : Fin 1024) (d : Fin 256) : ℝ := dev β μ i d * v i d + l i d

theorem dev_nonneg (i : Fin 1024) (d : Fin 256) : 0 ≤ dev β μ i d :=
  mul_nonneg (Finset.sum_nonneg fun j _ => mul_self_nonneg _) (by norm_num)

/-- The kernel's clamped expansion is the mean of squared deviations. -/
theorem clamp_eq_dev (i : Fin 1024) (d : Fin 256) :
    max ((∑ j : Fin 1024, β (ix2 j d) * β (ix2 j d)) * (1 / 1024)
          - 2 * μ i d * ((∑ j : Fin 1024, β (ix2 j d)) * (1 / 1024)) + μ i d * μ i d) 0 = dev β μ i d := by
  have h := MeanSquare.mean_sq_dev (n := 1024) (by norm_num) (fun j => β (ix2 j d)) (μ i d)
  have e : (((1024 : ℕ) : ℝ)) = 1024 := by norm_num
  rw [e] at h
  have h' : (∑ j : Fin 1024, β (ix2 j d) * β (ix2 j d)) * (1 / 1024)
          - 2 * μ i d * ((∑ j : Fin 1024, β (ix2 j d)) * (1 / 1024)) + μ i d * μ i d = dev β μ i d := by
    unfold dev
    simp only [mul_one_div]
    exact h.symm
  rw [h']
  exact max_eq_left (dev_nonneg β μ i d)

end Real

/-! ## The two totals over coerced reals -/

section Coerced

variable (β : (⟨2, ![1024, 256]⟩ : Shape).Idx → ℝ) (μ l v : Fin 1024 → Fin 256 → ℝ)

local notation "B" => (fun j => ((β j : ℝ) : EReal))
local notation "Mu" => (fun i d => ((μ i d : ℝ) : EReal))
local notation "Lv" => (fun i d => ((l i d : ℝ) : EReal))
local notation "Iv" => (fun i d => ((v i d : ℝ) : EReal))

theorem kterm_coe (i : Fin 1024) (d : Fin 256) : kterm B Mu Lv Iv i d = ((term β μ l v i d : ℝ) : EReal) := by
  unfold kterm colMean colMeanSq term
  rw [div_nW, div_nW, twoW_eq]
  simp only [← EReal.coe_mul, ← ERealCoe.coe_finset_sum, ← EReal.coe_sub, ← EReal.coe_add]
  rw [← EReal.coe_zero, coe_max, ← EReal.coe_mul, ← EReal.coe_add, clamp_eq_dev]

theorem tileSum_coe (t : Fin 4) :
    tileSum B Mu Lv Iv t = ((∑ p : Fin 256, ∑ q : Fin 256, term β μ l v (tileRow t p) q : ℝ) : EReal) := by
  unfold tileSum
  simp only [kterm_coe, ← ERealCoe.coe_finset_sum]

theorem kernelVal_coe :
    kernelVal B Mu Lv Iv = (((∑ i : Fin 1024, ∑ d : Fin 256, term β μ l v i d) * (1 / 1024) : ℝ) : EReal) := by
  unfold kernelVal
  rw [div_nW]
  simp only [tileSum_coe, zero_add, ← EReal.coe_add, ← EReal.coe_mul]
  congr 2
  have h := MeanSquare.sum_tiles 4 256 (fun i : Fin (4 * 256) => ∑ d : Fin 256, term β μ l v i d)
  have e : ∀ (t : Fin 4) (p : Fin 256), (finProdFinEquiv (t, p) : Fin (4 * 256)) = tileRow t p := fun t p =>
    Fin.ext (by simp only [finProdFinEquiv, Equiv.coe_fn_mk, tileRow]; omega)
  simp only [e] at h
  rw [show (∑ i : Fin 1024, ∑ d : Fin 256, term β μ l v i d) = ∑ i : Fin (4 * 256), ∑ d : Fin 256, term β μ l v i d from rfl,
    h, Fin.sum_univ_four]

theorem posRow_coe (i : Fin 1024) : posRow B Mu Lv Iv i
    = ((∑ d : Fin 256, ((-((β (ix2 i d) - μ i d) * (β (ix2 i d) - μ i d))) * v i d - l i d) : ℝ) : EReal) := by
  unfold posRow
  simp only [← EReal.coe_sub, ← EReal.coe_mul, ← EReal.coe_neg, ← ERealCoe.coe_finset_sum]

theorem probRow_coe (i : Fin 1024) : probRow B Mu Lv Iv i
    = ((∑ d : Fin 256, (((β (ix2 i d) - μ i d) * (β (ix2 i d) - μ i d)) * v i d + l i d) : ℝ) : EReal) := by
  unfold probRow
  simp only [← EReal.coe_sub, ← EReal.coe_mul, ← EReal.coe_add, ← ERealCoe.coe_finset_sum]

theorem negRow_coe (i : Fin 1024) : negRow B Mu Lv Iv i
    = ((∑ d : Fin 256, ((-(dev β μ i d)) * v i d - l i d) : ℝ) : EReal) := by
  unfold negRow dev
  simp only [div_nW, ← EReal.coe_sub, ← EReal.coe_mul, ← EReal.coe_neg, ← ERealCoe.coe_finset_sum]

theorem refVal_coe :
    refVal B Mu Lv Iv = (((∑ i : Fin 1024, ∑ d : Fin 256, term β μ l v i d) * (1 / 1024) : ℝ) : EReal) := by
  unfold refVal
  rw [div_nW, div_nW, oneW_eq]
  simp only [posRow_coe, negRow_coe, probRow_coe, ← EReal.coe_sub, ← EReal.coe_mul, ← EReal.coe_add,
    ← ERealCoe.coe_finset_sum]
  congr 1
  rw [one_mul, one_mul, ← add_mul, ← Finset.sum_add_distrib]
  congr 1
  refine Finset.sum_congr rfl fun i _ => ?_
  rw [← Finset.sum_sub_distrib, ← Finset.sum_add_distrib]
  refine Finset.sum_congr rfl fun d _ => ?_
  unfold term
  ring

theorem kernelVal_eq_refVal_coe : kernelVal B Mu Lv Iv = refVal B Mu Lv Iv := by
  rw [kernelVal_coe, refVal_coe]

end Coerced

/-- The kernel's total is the reference's, for real domain_b, means, log-variances and inverse variances. -/
theorem kernelVal_eq_refVal (b : Mat 1024 256) (M L V : Fin 1024 → Fin 256 → EReal)
    (hb : ∀ j, ∃ r : ℝ, b j = (r : EReal)) (hM : ∀ i d, ∃ r : ℝ, M i d = (r : EReal))
    (hL : ∀ i d, ∃ r : ℝ, L i d = (r : EReal)) (hV : ∀ i d, ∃ r : ℝ, V i d = (r : EReal)) :
    kernelVal b M L V = refVal b M L V := by
  choose β hβ using hb
  choose μ hμ using hM
  choose l hl using hL
  choose v hv using hV
  obtain rfl : b = fun j => ((β j : ℝ) : EReal) := funext hβ
  obtain rfl : M = fun i d => ((μ i d : ℝ) : EReal) := funext fun i => funext fun d => hμ i d
  obtain rfl : L = fun i d => ((l i d : ℝ) : EReal) := funext fun i => funext fun d => hl i d
  obtain rfl : V = fun i d => ((v i d : ℝ) : EReal) := funext fun i => funext fun d => hv i d
  exact kernelVal_eq_refVal_coe β μ l v

end Cert.Club

end
-- ==== Proof.ClubClaims.lean ====
/-
  The five claims.

  The three frames are the generated frame runs (the reference's is its generated run with the result dropped), and the
  idealization rewrote nothing.  For the value claim: the idealized kernel's run ends with its scalar result at the
  kernel's total of ClubSpec over the launch memory's arrays (KernRun), the reference's generated run ends with its result at
  the reference's total (RefTotal) of arrays that agree with the kernel's; the precondition makes every entry of the
  fourteen arrays a real number (FiniteInputs), hence the means, log-variances and inverse variances real (RealEntries),
  and for real entries the two totals are one number (ClubAlgebra).
-/
import proofs.«119348_j27986006901387_2_alg».proof.Defs
import proofs.«119348_j27986006901387_2_alg».proof.Proof.Gen.Kernel.Frame
import proofs.«119348_j27986006901387_2_alg».proof.Proof.Gen.KernelIdeal.Frame
import proofs.«119348_j27986006901387_2_alg».proof.Proof.Gen.ReferenceIdeal.Run
import proofs.«119348_j27986006901387_2_alg».proof.Proof.Gen.ReferenceIdeal.Read
import proofs.«119348_j27986006901387_2_alg».proof.Proof.Gen.Pre_finite_inputs
import proofs.«119348_j27986006901387_2_alg».proof.Proof.KernRun
import proofs.«119348_j27986006901387_2_alg».proof.Proof.RefTotal
import proofs.«119348_j27986006901387_2_alg».proof.Proof.FiniteInputs
import proofs.«119348_j27986006901387_2_alg».proof.Proof.RealEntries
import proofs.«119348_j27986006901387_2_alg».proof.Proof.ClubAlgebra

noncomputable section

open Idealize.ShloMosaic Idealize.ShloMosaic.TcCoe Idealize.SL.Sem

namespace Cert.Proof.ClubClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the same scalar. -/
theorem algebraic : Cert.algebraic_KernelIdeal_ReferenceIdeal := by
  intro m ρ m' ρ' hpre hagree
  refine ⟨fun c => fun _ => Cert.Club.Kern.total m c, Cert.Club.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.Club.RefTotal.ref_eq]
  obtain ⟨e0, e1, e2, e3, e4, e5, e6, e7, e8, e9, e10, e11, e12, e13⟩ := hagree c
  rw [e0, e1, e2, e3, e4, e5, e6, e7, e8, e9, e10, e11, e12, e13]
  obtain ⟨r0, r1, r2, r3, r4, r5, r6, r7, r8, r9, r10, r11, r12, r13⟩ := Cert.Club.FiniteInputs.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  funext _
  exact (Cert.Club.kernelVal_eq_refVal _ _ _ _ r1
    (Cert.Club.RealEntries.mu_real _ _ _ _ _ _ _ r0 r2 r3 r4 r5 r6 r7)
    (Cert.Club.RealEntries.lv_real _ _ _ _ _ _ _ r0 r8 r9 r10 r11 r12 r13)
    (Cert.Club.RealEntries.iv_real _ _ _ _ _ _ _ r0 r8 r9 r10 r11 r12 r13)).symm

end Cert.Proof.ClubClaims

end
-- ==== Proof.lean ====
/-
  The certificate of the CLUB loss kernel against its reference: `Cert.Claim` from the five claims proved in
  Proof/ClubClaims.lean, behind the witnesses of the programs' stated facts.

  The kernel computes, tile by tile, the mean over the 1024 rows of
      Σ_d ( mean_j (b j d - mu i d)² · exp(-lv i d) + lv i d ),
  with the inner mean expanded as Eb2 d - 2·mu i d·Eb d + mu i d² and clamped at zero; the reference computes the sum of
  its embedding-model and probability-model losses, in which the positive-sample terms cancel.  Over real entries the
  two are the same number (Proof/ClubAlgebra.lean); the precondition makes every entry real (Proof/FiniteInputs.lean).
-/
import proofs.«119348_j27986006901387_2_alg».proof.Defs
import proofs.«119348_j27986006901387_2_alg».proof.Proof.Gen.Kernel
import proofs.«119348_j27986006901387_2_alg».proof.Proof.Gen.Kernel.Skeleton
import proofs.«119348_j27986006901387_2_alg».proof.Proof.Gen.Kernel.Launch
import proofs.«119348_j27986006901387_2_alg».proof.Proof.Gen.Kernel.Points
import proofs.«119348_j27986006901387_2_alg».proof.Proof.Gen.Kernel.Frame
import proofs.«119348_j27986006901387_2_alg».proof.Proof.Gen.KernelIdeal
import proofs.«119348_j27986006901387_2_alg».proof.Proof.Gen.KernelIdeal.Skeleton
import proofs.«119348_j27986006901387_2_alg».proof.Proof.Gen.KernelIdeal.Launch
import proofs.«119348_j27986006901387_2_alg».proof.Proof.Gen.KernelIdeal.Points
import proofs.«119348_j27986006901387_2_alg».proof.Proof.Gen.KernelIdeal.Frame
import proofs.«119348_j27986006901387_2_alg».proof.Proof.Gen.ReferenceIdeal
import proofs.«119348_j27986006901387_2_alg».proof.Proof.Gen.ReferenceIdeal.Run
import proofs.«119348_j27986006901387_2_alg».proof.Proof.Gen.ReferenceIdeal.Read
import proofs.«119348_j27986006901387_2_alg».proof.Proof.Gen.Pre_finite_inputs
import proofs.«119348_j27986006901387_2_alg».proof.Proof.ClubClaims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    ClubClaims.frame_k, ClubClaims.frame_ki, ClubClaims.frame_ri, ClubClaims.preserves, ClubClaims.algebraic⟩

end Cert.Proof

end
